-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S1024x256 : Shape := ⟨2, ![1024, 256]⟩
abbrev S1024 : Shape := ⟨1, ![1024]⟩
abbrev S1024x1 : Shape := ⟨2, ![1024, 1]⟩
abbrev S1x1 : Shape := ⟨2, ![1, 1]⟩
abbrev S128x256 : Shape := ⟨2, ![128, 256]⟩
abbrev S128x4096 : Shape := ⟨2, ![128, 4096]⟩
abbrev S128 : Shape := ⟨1, ![128]⟩
abbrev S128x1 : Shape := ⟨2, ![128, 1]⟩
abbrev S1 : Shape := ⟨1, ![1]⟩
abbrev S_ : Shape := ⟨0, ![]⟩

abbrev nBuf : Space → Nat
  | .hbm => 9
  | .vmem => 11
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .bf16⟩
  | .hbm, ⟨3, _⟩ => ⟨S4096x256, .bf16⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S4096x256, .bf16⟩
  | .local _ .vmem, ⟨9, _⟩ => ⟨S4096x256, .bf16⟩
  | .local _ .vmem, ⟨10, _⟩ => ⟨S1x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def k1_mult1 (i : grid1.Coords) : BitVec 32 :=
  let arg0 : BitVec 32 := BitVec.ofNat 32 (i 0).val
  let c128_i32 : BitVec 32 := 128#32
  let v0 : BitVec 32 := Scalar.muli arg0 c128_i32
  v0
def k1_off1 (i : grid1.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let v2 : Index := Scalar.indexCast v1
  let c0 : Index := 0#32
  ![v2.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S4096x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S4096x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  packedbf16_S1024x256_S1024x256_0_0 : (Rect.unit (s := S1024x256) ![0, 0] S1024x256.size inb_S1024x256_S1024x256_0_0).PackedRows (EltTy.packing .bf16)
  h_S128x256 : 0 < S128x256.numel
  shapeCasts_S128x256_S128x256 : S128x256.ShapeCasts S128x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  iota_S128x4096_d0_w32 : S128x4096.Iotas .tc 32 [0]
  iota_S128x4096_d1_w32 : S128x4096.Iotas .tc 32 [1]
  reduces_S128x4096_S128 : S128x4096.Reduces [1] S128
  shapeCasts_S128_S128x1 : S128.ShapeCasts S128x1
  broadcasts_S128x1_S128x4096 : S128x1.Broadcasts S128x4096
  reduces_S128x1_S1 : S128x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  dot_S128x256_S4096x256_S128x4096_1_1_0_0_n_n_wf : DotDims.WF S128x256 S4096x256 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x256.size a
  hwx0_1 : ∀ i : grid0.Coords, EltTy.bits .f32 = 32 ∨ (Rect.block (s := S4096x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S4096x256.size a
  hwx0_2 : ∀ i : grid0.Coords, EltTy.bits .bf16 = 32 ∨ (Rect.block (s := S4096x256) S1024x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S4096x256.size a
  hwx0_3 : ∀ i : grid0.Coords, EltTy.bits .bf16 = 32 ∨ (Rect.block (s := S4096x256) S1024x256.size (cc0_transform_3 i) (hinb0_3 i)).WholeWords (EltTy.packing .bf16)
  hrank1 : 0 < grid1.rank
  k1_mult1_dvd : ∀ i : grid1.Coords, 128 ∣ (k1_mult1 i).toNat
  k1_off1_inb : ∀ i : grid1.Coords, ∀ a, (k1_off1 i) a + S128x256.size a ≤ S4096x256.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S4096x256.size a
  hwx1_0 : ∀ i : grid1.Coords, EltTy.bits .bf16 = 32 ∨ (Rect.block (s := S4096x256) S4096x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .bf16 = 32 ∨ (Rect.block (s := S4096x256) S4096x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

def dot_S128x256_S4096x256_S128x4096_1_1_0_0_n_n : DotDims S128x256 S4096x256 S128x4096 where
  lhsContracting := [1]
  rhsContracting := [1]
  lhsNonContracting := [0]
  rhsNonContracting := [0]
  lhsBatch := []
  rhsBatch := []
  wf := dot_S128x256_S4096x256_S128x4096_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0_0) S4096x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S256x4096 : Shape := ⟨2, ![256, 4096]⟩
abbrev S4096x4096 : Shape := ⟨2, ![4096, 4096]⟩
abbrev S4096x2 : Shape := ⟨2, ![4096, 2]⟩
abbrev S4096x8192 : Shape := ⟨2, ![4096, 8192]⟩
abbrev S8192x8192 : Shape := ⟨2, ![8192, 8192]⟩
abbrev S8192 : Shape := ⟨1, ![8192]⟩
abbrev S8192x1 : Shape := ⟨2, ![8192, 1]⟩
abbrev S8192x2 : Shape := ⟨2, ![8192, 2]⟩

abbrev nBuf : Space → Nat
  | .hbm => 122
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S256x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S256x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S256x4096, .f32⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S4096, .i32⟩
  | .hbm, ⟨45, _⟩ => ⟨S_, .i32⟩
  | .hbm, ⟨46, _⟩ => ⟨S4096, .i32⟩
  | .hbm, ⟨47, _⟩ => ⟨S4096, .i1⟩
  | .hbm, ⟨48, _⟩ => ⟨S_, .i32⟩
  | .hbm, ⟨49, _⟩ => ⟨S4096, .i32⟩
  | .hbm, ⟨50, _⟩ => ⟨S4096, .i32⟩
  | .hbm, ⟨51, _⟩ => ⟨S4096, .i32⟩
  | .hbm, ⟨52, _⟩ => ⟨S4096x1, .i32⟩
  | .hbm, ⟨53, _⟩ => ⟨S4096x1, .i32⟩
  | .hbm, ⟨54, _⟩ => ⟨S4096x2, .i32⟩
  | .hbm, ⟨55, _⟩ => ⟨S_, .f32⟩
  | .hbm, ⟨56, _⟩ => ⟨S4096, .f32⟩
  | .hbm, ⟨57, _⟩ => ⟨S4096x4096, .f32⟩
  | .hbm, ⟨58, _⟩ => ⟨S_, .i32⟩
  | .hbm, ⟨59, _⟩ => ⟨S4096, .i32⟩
  | .hbm, ⟨60, _⟩ => ⟨S4096, .i1⟩
  | .hbm, ⟨61, _⟩ => ⟨S_, .i32⟩
  | .hbm, ⟨62, _⟩ => ⟨S4096, .i32⟩
  | .hbm, ⟨63, _⟩ => ⟨S4096, .i32⟩
  | .hbm, ⟨64, _⟩ => ⟨S4096, .i32⟩
  | .hbm, ⟨65, _⟩ => ⟨S_, .i32⟩
  | .hbm, ⟨66, _⟩ => ⟨S4096, .i32⟩
  | .hbm, ⟨67, _⟩ => ⟨S4096, .i1⟩
  | .hbm, ⟨68, _⟩ => ⟨S_, .i32⟩
  | .hbm, ⟨69, _⟩ => ⟨S4096, .i32⟩
  | .hbm, ⟨70, _⟩ => ⟨S4096, .i32⟩
  | .hbm, ⟨71, _⟩ => ⟨S4096, .i32⟩
  | .hbm, ⟨72, _⟩ => ⟨S4096x1, .i32⟩
  | .hbm, ⟨73, _⟩ => ⟨S4096x1, .i32⟩
  | .hbm, ⟨74, _⟩ => ⟨S4096x2, .i32⟩
  | .hbm, ⟨75, _⟩ => ⟨S_, .f32⟩
  | .hbm, ⟨76, _⟩ => ⟨S4096, .f32⟩
  | .hbm, ⟨77, _⟩ => ⟨S4096x4096, .f32⟩
  | .hbm, ⟨78, _⟩ => ⟨S4096x8192, .f32⟩
  | .hbm, ⟨79, _⟩ => ⟨S4096x4096, .f32⟩
  | .hbm, ⟨80, _⟩ => ⟨S4096x8192, .f32⟩
  | .hbm, ⟨81, _⟩ => ⟨S8192x8192, .f32⟩
  | .hbm, ⟨82, _⟩ => ⟨S8192, .i32⟩
  | .hbm, ⟨83, _⟩ => ⟨S_, .f32⟩
  | .hbm, ⟨84, _⟩ => ⟨S8192, .f32⟩
  | .hbm, ⟨85, _⟩ => ⟨S_, .f32⟩
  | .hbm, ⟨86, _⟩ => ⟨S8192, .f32⟩
  | .hbm, ⟨87, _⟩ => ⟨S8192, .f32⟩
  | .hbm, ⟨88, _⟩ => ⟨S8192x1, .f32⟩
  | .hbm, ⟨89, _⟩ => ⟨S8192x8192, .f32⟩
  | .hbm, ⟨90, _⟩ => ⟨S8192x8192, .f32⟩
  | .hbm, ⟨91, _⟩ => ⟨S8192x8192, .f32⟩
  | .hbm, ⟨92, _⟩ => ⟨S_, .f32⟩
  | .hbm, ⟨93, _⟩ => ⟨S8192, .f32⟩
  | .hbm, ⟨94, _⟩ => ⟨S8192x1, .f32⟩
  | .hbm, ⟨95, _⟩ => ⟨S8192x1, .f32⟩
  | .hbm, ⟨96, _⟩ => ⟨S8192x8192, .f32⟩
  | .hbm, ⟨97, _⟩ => ⟨S8192x8192, .f32⟩
  | .hbm, ⟨98, _⟩ => ⟨S8192, .i32⟩
  | .hbm, ⟨99, _⟩ => ⟨S_, .i32⟩
  | .hbm, ⟨100, _⟩ => ⟨S8192, .i32⟩
  | .hbm, ⟨101, _⟩ => ⟨S8192, .i1⟩
  | .hbm, ⟨102, _⟩ => ⟨S_, .i32⟩
  | .hbm, ⟨103, _⟩ => ⟨S8192, .i32⟩
  | .hbm, ⟨104, _⟩ => ⟨S8192, .i32⟩
  | .hbm, ⟨105, _⟩ => ⟨S8192, .i32⟩
  | .hbm, ⟨106, _⟩ => ⟨S_, .i32⟩
  | .hbm, ⟨107, _⟩ => ⟨S8192, .i32⟩
  | .hbm, ⟨108, _⟩ => ⟨S8192, .i1⟩
  | .hbm, ⟨109, _⟩ => ⟨S_, .i32⟩
  | .hbm, ⟨110, _⟩ => ⟨S8192, .i32⟩
  | .hbm, ⟨111, _⟩ => ⟨S8192, .i32⟩
  | .hbm, ⟨112, _⟩ => ⟨S8192, .i32⟩
  | .hbm, ⟨113, _⟩ => ⟨S8192x1, .i32⟩
  | .hbm, ⟨114, _⟩ => ⟨S8192x1, .i32⟩
  | .hbm, ⟨115, _⟩ => ⟨S8192x2, .i32⟩
  | .hbm, ⟨116, _⟩ => ⟨S8192, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_c_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_10 : Ref sig .tc := ⟨.hbm, 65, rfl⟩
abbrev main_v43 : Ref sig .tc := ⟨.hbm, 66, rfl⟩
abbrev main_v44 : Ref sig .tc := ⟨.hbm, 67, rfl⟩
abbrev main_c_11 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_12 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_call2_cst : Ref sig .tc := ⟨.hbm, 83, rfl⟩
abbrev main_call2_v0 : Ref sig .tc := ⟨.hbm, 84, rfl⟩
abbrev main_call2_cst_0 : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_v6 : Ref sig .tc := ⟨.hbm, 91, rfl⟩
abbrev main_call2_cst_1 : Ref sig .tc := ⟨.hbm, 92, rfl⟩
abbrev main_call2_v7 : Ref sig .tc := ⟨.hbm, 93, rfl⟩
abbrev main_call2_v8 : Ref sig .tc := ⟨.hbm, 94, rfl⟩
abbrev main_call2_v9 : Ref sig .tc := ⟨.hbm, 95, rfl⟩
abbrev main_call2_v10 : Ref sig .tc := ⟨.hbm, 96, rfl⟩
abbrev main_v58 : Ref sig .tc := ⟨.hbm, 97, rfl⟩
abbrev main_v59 : Ref sig .tc := ⟨.hbm, 98, rfl⟩
abbrev main_c_13 : Ref sig .tc := ⟨.hbm, 99, rfl⟩
abbrev main_v60 : Ref sig .tc := ⟨.hbm, 100, rfl⟩
abbrev main_v61 : Ref sig .tc := ⟨.hbm, 101, rfl⟩
abbrev main_c_14 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_c_15 : Ref sig .tc := ⟨.hbm, 106, rfl⟩
abbrev main_v65 : Ref sig .tc := ⟨.hbm, 107, rfl⟩
abbrev main_v66 : Ref sig .tc := ⟨.hbm, 108, rfl⟩
abbrev main_c_16 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_cst_17 : Ref sig .tc := ⟨.hbm, 117, rfl⟩
abbrev main_v74 : Ref sig .tc := ⟨.hbm, 118, rfl⟩
abbrev main_cst_18 : Ref sig .tc := ⟨.hbm, 119, rfl⟩
abbrev main_v75 : Ref sig .tc := ⟨.hbm, 120, rfl⟩
abbrev main_v76 : Ref sig .tc := ⟨.hbm, 121, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  transposes_S4096x256_S256x4096_1_0 : S4096x256.Transposes [1, 0] S256x4096
  bcast_S_S4096x4096 : S_.BroadcastsInDim S4096x4096 (![] : Fin 0 → Fin S4096x4096.rank)
  bcast_S_S4096 : S_.BroadcastsInDim S4096 (![] : Fin 0 → Fin S4096.rank)
  concatenates_S4096x1_S4096x1_S4096x2_d1 : Shape.Concatenates [S4096x1, S4096x1] S4096x2 1
  concatenates_S4096x4096_S4096x4096_S4096x8192_d1 : Shape.Concatenates [S4096x4096, S4096x4096] S4096x8192 1
  transposes_S4096x4096_S4096x4096_1_0 : S4096x4096.Transposes [1, 0] S4096x4096
  concatenates_S4096x8192_S4096x8192_S8192x8192_d0 : Shape.Concatenates [S4096x8192, S4096x8192] S8192x8192 0
  reducesTo_S8192x8192_S8192_d1 : S8192x8192.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  concatenates_S8192x1_S8192x1_S8192x2_d1 : Shape.Concatenates [S8192x1, S8192x1] S8192x2 1
  reducesTo_S8192_S_d0 : S8192.ReducesTo [0] S_
  dot_S4096x256_S256x4096_S4096x4096_1_0_0_1_n_n_wf : DotDims.WF S4096x256 S256x4096 S4096x4096 [1] [0] [0] [1] [] []
  scatter_S4096x4096_S4096x2_S4096_n_01_01_1_wf : ScatterDims.WF S4096x4096 S4096x2 S4096 [] [0, 1] [0, 1] 1
  gather_S8192x8192_S8192x2_S8192_n_01_n_n_01_1_11_wf : GatherDims.WF S8192x8192 S8192x2 S8192 [] [0, 1] [] [0, 1] [] 1 ![1, 1]

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def scatter_S4096x4096_S4096x2_S4096_n_01_01_1 : ScatterDims S4096x4096 S4096x2 S4096 where
  updateWindowDims := []
  insertedWindowDims := [0, 1]
  scatterDimsToOperandDims := [0, 1]
  indexVectorDim := 1
  wf := scatter_S4096x4096_S4096x2_S4096_n_01_01_1_wf
def gather_S8192x8192_S8192x2_S8192_n_01_n_n_01_1_11 : GatherDims S8192x8192 S8192x2 S8192 where
  offsetDims := []
  collapsedSliceDims := [0, 1]
  operandBatchingDims := []
  startIndicesBatchingDims := []
  startIndexMap := [0, 1]
  indexVectorDim := 1
  sliceSizes := ![1, 1]
  wf := gather_S8192x8192_S8192x2_S8192_n_01_n_n_01_1_11_wf

class Facts : Prop extends Facts₀ where

variable [Facts]
-- ==== Proof.KernelRun.lean ====
/-
  The idealized kernel's run, read for its VALUE: from any memory with zero counters every weakly fair execution of
  @main on the TensorCores terminates, and every final state holds in the result buffer `main_v4` what the last
  boundary's contents `W3` hold there, beside the two argument arrays as launched.

  `W3` is the fold of the buffer contents through @main's three segments (the two pallas_calls' exit contents, then
  the host stretch), so the run's answer is a closed expression in the launch memory.
-/
import proofs.«169810_j2911987827023_2_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- THE VALUE RUN: at the compiled mesh, from any memory with zero counters, every weakly fair execution of @main on
    the TensorCores terminates, nothing faulting, and every final state has the result buffer at the last boundary's
    contents and the argument arrays as launched. The last thread state holds every unscoped buffer at `W3`; it is
    read against the final state at the result buffer and at each argument. -/
theorem value_run : θ_run defs (onTc (τ := τ) (main (F := F))) ⟨m, fun _ => 0, ρ⟩ (fun r => ∀ c : Dev nD,
      r.2.mem ((c.tc : Thread nD τ).loc main_v4) = W3 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v4 (by decide)),
       (h c _ (mem_uc main_arg0 (by decide))).trans (W3_main_arg0 m ρ c),
       (h c _ (mem_uc main_arg1 (by decide))).trans (W3_main_arg1 m ρ c)⟩)

end Cert.KernelIdeal.ValueRun

end
-- ==== Proof.Spec.lean ====
/-
  The contrastive (InfoNCE) loss of two families of 4096 unit-normalised rows of length 256, as functions on the
  extended reals, written twice: the way a row-tiled kernel accumulates it and the way the whole-matrix reference
  computes it. Nothing here mentions a program.

  A row `v` is normalised to `v / max (√(∑ v²)) ε`. For normalised families `a`, `b` the similarity of row `i` of
  `a` and row `j` of `b` is `2 · ⟨a i, b j⟩` (the temperature is 1/2). The loss is minus the mean, over the 8192
  rows of the block matrix `[[S_ab, S_aa°], [S_bb°, S_abᵀ]]` (`°`: diagonal set to −∞), of the log-softmax of
  the row at its own target column, which in both halves is `S_ab i i`.
-/
import Idealize.ShloMosaic.PureOps.Ideal
import Idealize.ShloMosaic.Lib.ValueIdx

noncomputable section

namespace Cert.Contrast

open Idealize.ShloMosaic Idealize.ShloMosaic.ValueIdx

/-- A family of 4096 rows of length 256. -/
abbrev Rows := Fin 4096 → Fin 256 → EReal

/-- The float words the two programs share, at their exact values. -/
def two : EReal := Ideal.ofBits .f32 0x40000000#32
def eps : EReal := Ideal.ofBits .f32 0x322BCC77#32
def cnt : EReal := Ideal.ofBits .f32 0x46000000#32

/-- The maximum of finitely many extended reals, from −∞. -/
def rowmax {n : ℕ} (f : Fin n → EReal) : EReal := (Finset.univ : Finset (Fin n)).fold max ⊥ f

/-- Row normalisation of a 4096 × 256 array: each entry over the larger of its row's Euclidean norm and ε. -/
def unit (x : (⟨2, ![4096, 256]⟩ : Shape).Idx → EReal) : Rows := fun i k =>
  Ideal.div (x (ix2 i k)) (max (Ideal.sqrt (∑ k' : Fin 256, x (ix2 i k') * x (ix2 i k'))) eps)

/-- Scaled inner product of row `i` of `a` and row `j` of `b`. -/
def sim (a b : Rows) (i j : Fin 4096) : EReal := (∑ k : Fin 256, a i k * b j k) * two

/-- The self-similarities with the diagonal at −∞. -/
def msk (a : Rows) (i j : Fin 4096) : EReal := if i = j then ⊥ else sim a a i j

/-! ## The row-tiled accumulation -/

/-- Log-sum-exp of a row given as two halves `p`, `q`, shifted by the larger of the halves' maxima. -/
def lse2 (p q : Fin 4096 → EReal) : EReal :=
  max (rowmax p) (rowmax q)
    + Ideal.log ((∑ j, Ideal.exp (p j - max (rowmax p) (rowmax q))) + (∑ j, Ideal.exp (q j - max (rowmax p) (rowmax q))))

/-- The target logit of row `i`, picked out of its row by a mask and a sum. -/
def diag (a b : Rows) (i : Fin 4096) : EReal := ∑ j : Fin 4096, if i = j then sim a b i j else 0

/-- Row `i`'s contribution: twice the target logit less the log-sum-exp of each of the two rows it stands in. -/
def rowK (a b : Rows) (i : Fin 4096) : EReal :=
  two * diag a b i - lse2 (sim a b i) (msk a i) - lse2 (msk b i) (sim b a i)

/-- The sum over the 128 rows of tile `t`. -/
def partK (a b : Rows) (t : ℕ) : EReal :=
  ∑ r : Fin 128, rowK a b ⟨(128 * t + r.val) % 4096, Nat.mod_lt _ (by norm_num)⟩

/-- The running total after tile `n`: started at zero at tile 0. -/
def accK (a b : Rows) : ℕ → EReal
  | 0 => 0 + partK a b 0
  | n + 1 => accK a b n + partK a b (n + 1)

/-- The loss as the tiled program leaves it. -/
def lossK (a b : Rows) : EReal := Ideal.div (-(accK a b 31)) cnt

/-! ## The whole-matrix form -/

/-- The low 12 bits of an index below 8192. -/
def lo (I : Fin 8192) : Fin 4096 := ⟨I.val % 4096, Nat.mod_lt _ (by norm_num)⟩

/-- The 8192 × 8192 score matrix. -/
def scores (a b : Rows) (I J : Fin 8192) : EReal :=
  if I.val < 4096 then (if J.val < 4096 then sim a b (lo I) (lo J) else msk a (lo I) (lo J))
  else (if J.val < 4096 then msk b (lo I) (lo J) else sim a b (lo J) (lo I))

/-- The log-softmax of row `I` at its target column `I`. -/
def rowR (a b : Rows) (I : Fin 8192) : EReal :=
  (scores a b I I - max ⊥ (rowmax (scores a b I)))
    - Ideal.log (0 + ∑ J : Fin 8192, Ideal.exp (scores a b I J - max ⊥ (rowmax (scores a b I))))

/-- The loss as the reference computes it. -/
def lossR (a b : Rows) : EReal := -(Ideal.div (0 + ∑ I : Fin 8192, rowR a b I) cnt)

end Cert.Contrast

end
-- ==== Proof.KernelTail.lean ====
/-
  The idealized kernel's host tail, read as a value over the extended reals: after the second pallas_call the program
  reshapes its [1,1] accumulator to a scalar, negates it, and divides by the constant 8192. The result buffer's
  contents at the last boundary are therefore `-(acc) / 8192`, with `acc` the one entry of the accumulator array as
  the second pallas_call leaves it.
-/
import proofs.«169810_j2911987827023_2_alg».proof.Proof.Gen.KernelIdeal.Frame
import proofs.«169810_j2911987827023_2_alg».proof.Proof.Spec
import Idealize.ShloMosaic.Lib.ValueIdx
import Idealize.ShloMosaic.Lib.Pipeline.Value

set_option maxRecDepth 16384

noncomputable section

namespace Cert.KernelIdeal.ValueRun

open Idealize.ShloMosaic Idealize.ShloMosaic.TcCoe Idealize.ShloMosaic.Tactic Idealize.ShloMosaic.ValueIdx
open Idealize.ShloMosaic.StableHlo
open Cert.KernelIdeal Cert.KernelIdeal.Gen

variable (m : (ℓ : Loc nD τ sig) → Buf (Elt Ideal) ℓ) (ρ : Dev nD → PrngReg)

/-- The host tail at a NAMED accumulator entry: if the accumulator array's one entry, as the second pallas_call
    leaves it, is `a`, the result buffer at the last boundary holds `-a / 8192` at its one index. The reshape of the
    [1,1] array to a scalar reads the entry at (0, 0) (both have row-major position 0); negation and division are the
    extended reals' at the ideal instance; the constant word is 8192. -/
theorem tail_value_of (c : Dev nD) (a : EReal)
    (ha : ((dat1 (F := Ideal) (V1 m ρ) c).arrAt 2 cfg1.N : S1x1.Idx → EReal) (ix2 0 0) = a) :
    (W3 (F := Ideal) m ρ c (Proc.devRef .tc main_v4) : S_.Idx → EReal)
      = fun _ => Ideal.div (-a) Cert.Contrast.cnt := by
  show StableHlo.after hostOps2 _ (Proc.devRef .tc main_v4) = _
  after_results
  funext j
  show Ideal.div (-(shapeCast (s := S1x1) (α := EReal) S_ (W2 m ρ c (Proc.devRef .tc main_v1)) shapeCasts_S1x1_S_ j))
      (Ideal.ofBits .f32 0x46000000#32) = Ideal.div (-a) Cert.Contrast.cnt
  have hk : (S1x1.rowMajor (ix2 (0 : Fin 1) (0 : Fin 1))).val = (S_.rowMajor j).val := by
    have h0 : (S_.rowMajor j).val = 0 := Shape.rowMajorPi_zero _ j
    rw [Shape.rowMajor_val_two, h0]
    rfl
  have e : shapeCast (s := S1x1) (α := EReal) S_ (W2 m ρ c (Proc.devRef .tc main_v1)) shapeCasts_S1x1_S_ j = a :=
    (shapeCast_apply (s := S1x1) (t := S_) (α := EReal) _ shapeCasts_S1x1_S_ j (ix2 0 0) hk).trans
      ((congrFun (W2_arr m ρ c 2) (ix2 0 0)).trans ha)
  rw [e]
  rfl

/-- The host tail read as a value: the result buffer at the last boundary is minus the accumulator's entry over 8192. -/
theorem tail_value (c : Dev nD) :
    (W3 (F := Ideal) m ρ c (Proc.devRef .tc main_v4) : S_.Idx → EReal)
      = fun _ => Ideal.div (@Neg.neg EReal _ (((dat1 (F := Ideal) (V1 m ρ) c).arrAt 2 cfg1.N : S1x1.Idx → EReal) (ix2 0 0)))
          Cert.Contrast.cnt :=
  tail_value_of m ρ c _ rfl

end Cert.KernelIdeal.ValueRun

end
-- ==== Proof.LibColBroadcast.lean ====
/-
  One column broadcast over many: the companion of the library's row form `broadcastTo_1b_ab_apply`.
-/
import Idealize.ShloMosaic.Lib.Pipeline.Value
import Idealize.ShloMosaic.Lib.ValueIdx

namespace Cert.LibColBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast
-- ==== Proof.NormPayload.lean ====
/-
  The row-normalising kernel's stored value, read at one element: entry `(r, k)` of a 1024 × 256 block `v` becomes
  `v r k / max (√(∑ₖ' v r k'²)) ε` — the sum of squares along the row, the keep-dimension cast of the row sums to a
  column, the column spread over the row's 256 places, and the narrowing to bf16, which on the extended reals is the identity.
-/
import proofs.«169810_j2911987827023_2_alg».proof.Proof.Gen.KernelIdeal.Skeleton
import proofs.«169810_j2911987827023_2_alg».proof.Proof.Spec
import proofs.«169810_j2911987827023_2_alg».proof.Proof.LibColBroadcast
import Idealize.ShloMosaic.Lib.ValueLayout
import Idealize.ShloMosaic.PureOps.Ideal.Laws

noncomputable section

namespace Cert.Contrast.Normalize

open Idealize.ShloMosaic Idealize.ShloMosaic.ValueIdx
open Cert.KernelIdeal Cert.KernelIdeal.Gen

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along a row of a 1024 × 256 block, read at row `r`. -/
theorem rowsum_apply (src : FVec Ideal S1024x256 .f32) (hφ : FKind.Formats FTy.f32)
    (hacc : (0x00000000#32 : BitVec 32) = 0x00000000#32) (r : Fin 1024) :
    multiReduction .add [1] S1024 src 0x00000000#32 reduces_S1024x256_S1024 hφ hacc (ix1 r) = ∑ k : Fin 256, src (ix2 r k) := by
  refine (Ideal.multiReduction_add_single src 0x00000000#32 reduces_S1024x256_S1024 hφ hacc (ix1 r)).trans ?_
  refine Finset.sum_congr rfl fun k _ => congrArg src ?_
  funext a
  match a with
  | ⟨0, _⟩ => rfl
  | ⟨1, _⟩ => rfl

/-- THE STORED VALUE AT AN ELEMENT: the entry over the larger of its row's Euclidean norm and ε. -/
theorem pay1_apply (v : Vec Ideal S1024x256 .f32) (r : Fin 1024) (k : Fin 256) :
    (k0_pay1 (F := Ideal) v : S1024x256.Idx → EReal) (ix2 r k)
      = Ideal.div (v (ix2 r k)) (max (Ideal.sqrt (∑ k' : Fin 256, v (ix2 r k') * v (ix2 r k'))) eps) := by
  have hs : ∀ (x : FVec Ideal S1024x1 .f32) (j : S1024x1.Idx), sqrt x j = Ideal.sqrt (x j) := fun _ _ => rfl
  unfold k0_pay1
  dsimp only
  rw [truncf_apply, divf_apply, Cert.LibColBroadcast.broadcastTo_a1_ab_apply, maximumf_apply, broadcast_apply, hs,
    shapeCast_a_a1_apply, rowsum_apply]
  simp only [mulf_apply]
  unfold eps
  rw [Ideal.ofBits_def]

/-- The second output's stored value is the same function of its own block. -/
theorem pay2_eq (v : Vec Ideal S1024x256 .f32) : k0_pay2 (F := Ideal) v = k0_pay1 (F := Ideal) v := rfl

/-- A BLOCK OF ROWS OF AN ARRAY, NORMALISED, IS THE BLOCK OF THE NORMALISED ARRAY: if the 1024 × 256 block `x` is rows
    `1024 b … 1024 b + 1023` of the 4096 × 256 array `A`, the stored value at `(r, k)` is `unit A` at row `1024 b + r` —
    normalisation looks along a row only, and the block holds whole rows. -/
theorem pay1_block (A : S4096x256.Idx → EReal) (b : ℕ) (x : Vec Ideal S1024x256 .f32)
    (hx : ∀ (r : Fin 1024) (k : Fin 256) (R : Fin 4096), R.val = b * 1024 + r.val → x (ix2 r k) = A (ix2 R k))
    (r : Fin 1024) (k : Fin 256) (R : Fin 4096) (hR : R.val = b * 1024 + r.val) :
    (k0_pay1 (F := Ideal) x : S1024x256.Idx → EReal) (ix2 r k) = unit A R k := by
  rw [pay1_apply]
  unfold unit
  simp only [fun k' => hx r k' R hR]

end Cert.Contrast.Normalize

end
-- ==== Proof.NormArray.lean ====
/-
  From blocks to arrays: after the row-normalising kernel has run over its four row blocks, each of its two output arrays
  holds the row-normalised argument, `unit` of the launch contents, at every index. Point `t` reads rows
  `1024 t … 1024 t + 1023` of an argument and writes the same rows of the output; normalisation looks along a row only, so
  what point `t` writes is block `t` of ONE whole-array function, and the four blocks cover the 4096 rows.
-/
import proofs.«169810_j2911987827023_2_alg».proof.Proof.Gen.KernelIdeal.Frame
import proofs.«169810_j2911987827023_2_alg».proof.Proof.NormPayload
import Idealize.ShloMosaic.Lib.Pipeline.Value

set_option maxRecDepth 16384

noncomputable section

namespace Cert.Contrast.Normalize

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The row-normalised array as ONE function of the whole argument array. -/
def nrm (A : S4096x256.Idx → EReal) : S4096x256.Idx → EReal :=
  fun j => unit A ⟨(j 0).val, idx2_lt0 j⟩ ⟨(j 1).val, idx2_lt1 j⟩

theorem nrm_apply (A : S4096x256.Idx → EReal) (i : Fin 4096) (k : Fin 256) : nrm A (ix2 i k) = unit A i k := rfl

/-- The printed index maps, decided over the grid: at point `t` every window's block is row block `t`, column block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 4 := lt_of_lt_of_eq t.isLt N_0

section Blocks
variable (V : (c : Dev nD) → (b : Ref sig .tc) → Buf (Elt Ideal) ((c : Thread nD τ).loc b))

/-- Input window 0's block at point `t` is rows `1024 t …` of its array. -/
theorem iblk0_0_apply (c : Dev nD) (t : Fin cfg0.N) (r : Fin 1024) (k : Fin 256) (R : Fin 4096) (hR : R.val = t.val * 1024 + r.val) :
    (iblk0 V c 0 t : Vec Ideal S1024x256 .f32) (ix2 r k) = (V c main_arg0 : S4096x256.Idx → EReal) (ix2 R k) := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 1024 + 1 * r.val = R.val; rw [e0, hR]; omega
  | ⟨1, _⟩ => show win0_0.index t 1 * 256 + 1 * k.val = k.val; rw [e1]; omega

/-- Input window 1's block at point `t` is rows `1024 t …` of its array. -/
theorem iblk0_1_apply (c : Dev nD) (t : Fin cfg0.N) (r : Fin 1024) (k : Fin 256) (R : Fin 4096) (hR : R.val = t.val * 1024 + r.val) :
    (iblk0 V c 1 t : Vec Ideal S1024x256 .f32) (ix2 r k) = (V c main_arg1 : S4096x256.Idx → EReal) (ix2 R k) := by
  obtain ⟨-, -, e0, e1, -⟩ := idx_facts t
  unfold iblk0
  rw [View.read_apply]
  show V c main_arg1 _ = V c main_arg1 _
  congr 1
  funext a
  apply Fin.ext
  match a with
  | ⟨0, _⟩ => show win0_1.index t 0 * 1024 + 1 * r.val = R.val; rw [e0, hR]; omega
  | ⟨1, _⟩ => show win0_1.index t 1 * 256 + 1 * k.val = k.val; rw [e1]; omega

/-- WHAT POINT `t` WRITES BACK through output window 2 is block `t` of the row-normalised first argument. -/
theorem flushed2_eq (c : Dev nD) (t : Fin cfg0.N) :
    (dat0 V c).flushed 2 t = ((cfg0.win 2).blk t).view.read (Elt Ideal) (nrm (V c main_arg0)) := by
  show (cfg0.win 2).cut (grid0.coords t) ((dat0 V c).after 2 t) = _
  rw [after0_2]
  unfold out0_2
  rw [View.canon_unit_zero hz]
  simp only [View.ld_unit_zero (S := S1024x256) hz]
  obtain ⟨-, -, -, -, e0, e1, -⟩ := idx_facts t
  have ht := t_lt t
  funext j
  show (k0_pay1 (F := Ideal) (iblk0 V c 0 t) : S1024x256.Idx → EReal) j = nrm (V c main_arg0) (((cfg0.win 2).blk t).view.emb j)
  obtain ⟨r, k, rfl⟩ : ∃ (r : Fin 1024) (k : Fin 256), j = ix2 r k := ⟨j 0, j 1, eq_ix2 j⟩
  have hemb : ((cfg0.win 2).blk t).view.emb (ix2 r k) = ix2 (⟨t.val * 1024 + r.val, by omega⟩ : Fin 4096) k := by
    funext a
    apply Fin.ext
    match a with
    | ⟨0, _⟩ => show win0_2.index t 0 * 1024 + 1 * r.val = t.val * 1024 + r.val; rw [e0]; omega
    | ⟨1, _⟩ => show win0_2.index t 1 * 256 + 1 * k.val = k.val; rw [e1]; omega
  rw [hemb, nrm_apply]
  exact pay1_block _ t.val _ (fun r k R hR => iblk0_0_apply V c t r k R hR) r k _ rfl

/-- WHAT POINT `t` WRITES BACK through output window 3 is block `t` of the row-normalised second argument. -/
theorem flushed3_eq (c : Dev nD) (t : Fin cfg0.N) :
    (dat0 V c).flushed 3 t = ((cfg0.win 3).blk t).view.read (Elt Ideal) (nrm (V c main_arg1)) := by
  show (cfg0.win 3).cut (grid0.coords t) ((dat0 V c).after 3 t) = _
  rw [after0_3]
  unfold out0_3
  rw [View.canon_unit_zero hz]
  simp only [View.ld_unit_zero (S := S1024x256) hz]
  rw [pay2_eq]
  obtain ⟨-, -, -, -, -, -, e0, e1⟩ := idx_facts t
  have ht := t_lt t
  funext j
  show (k0_pay1 (F := Ideal) (iblk0 V c 1 t) : S1024x256.Idx → EReal) j = nrm (V c main_arg1) (((cfg0.win 3).blk t).view.emb j)
  obtain ⟨r, k, rfl⟩ : ∃ (r : Fin 1024) (k : Fin 256), j = ix2 r k := ⟨j 0, j 1, eq_ix2 j⟩
  have hemb : ((cfg0.win 3).blk t).view.emb (ix2 r k) = ix2 (⟨t.val * 1024 + r.val, by omega⟩ : Fin 4096) k := by
    funext a
    apply Fin.ext
    match a with
    | ⟨0, _⟩ => show win0_3.index t 0 * 1024 + 1 * r.val = t.val * 1024 + r.val; rw [e0]; omega
    | ⟨1, _⟩ => show win0_3.index t 1 * 256 + 1 * k.val = k.val; rw [e1]; omega
  rw [hemb, nrm_apply]
  exact pay1_block _ t.val _ (fun r k R hR => iblk0_1_apply V c t r k R hR) r k _ rfl

end Blocks

/-- An index of the first output array is in point `t`'s block iff each coordinate is in the block's range on its axis. -/
theorem mem_blk2 (t : Fin cfg0.N) (i : S4096x256.Idx) :
    i ∈ ((cfg0.win 2).blk t).view.set ↔ ∀ a : Fin 2, win0_2.index t a * S1024x256.size a ≤ (i a).val ∧ (i a).val < win0_2.index t a * S1024x256.size a + S1024x256.size a := by
  show i ∈ ((View.whole main_v0_0).slice (win0_2.rect t)).set ↔ _
  rw [View.set_slice_whole, Rect.mem_set_unit]
  exact Iff.rfl

/-- The same for the second output array. -/
theorem mem_blk3 (t : Fin cfg0.N) (i : S4096x256.Idx) :
    i ∈ ((cfg0.win 3).blk t).view.set ↔ ∀ a : Fin 2, win0_3.index t a * S1024x256.size a ≤ (i a).val ∧ (i a).val < win0_3.index t a * S1024x256.size a + S1024x256.size a := by
  show i ∈ ((View.whole main_v0_1).slice (win0_3.rect t)).set ↔ _
  rw [View.set_slice_whole, Rect.mem_set_unit]
  exact Iff.rfl

/-- THE COVER: row `R` of the first output array is in the block of point `R / 1024`, which writes back. -/
theorem cover2 (i : S4096x256.Idx) : ∃ t : Fin cfg0.N, (cfg0.win 2).flush t = true ∧ i ∈ ((cfg0.win 2).blk t).view.set := by
  have hi0 : (i 0).val < 4096 := idx2_lt0 i
  have hi1 : (i 1).val < 256 := idx2_lt1 i
  have hN : (i 0).val / 1024 < cfg0.N := lt_of_lt_of_eq (by omega : (i 0).val / 1024 < 4) N_0.symm
  refine ⟨⟨(i 0).val / 1024, hN⟩, flush0_2 _, ?_⟩
  rw [mem_blk2]
  obtain ⟨-, -, -, -, e0, e1, -⟩ := idx_facts ⟨(i 0).val / 1024, hN⟩
  intro a
  match a with
  | ⟨0, _⟩ =>
    show win0_2.index ⟨(i 0).val / 1024, hN⟩ 0 * 1024 ≤ (i 0).val ∧ (i 0).val < win0_2.index ⟨(i 0).val / 1024, hN⟩ 0 * 1024 + 1024
    rw [e0]; show (i 0).val / 1024 * 1024 ≤ (i 0).val ∧ (i 0).val < (i 0).val / 1024 * 1024 + 1024; omega
  | ⟨1, _⟩ =>
    show win0_2.index ⟨(i 0).val / 1024, hN⟩ 1 * 256 ≤ (i 1).val ∧ (i 1).val < win0_2.index ⟨(i 0).val / 1024, hN⟩ 1 * 256 + 256
    rw [e1]; omega

/-- The same for the second output array. -/
theorem cover3 (i : S4096x256.Idx) : ∃ t : Fin cfg0.N, (cfg0.win 3).flush t = true ∧ i ∈ ((cfg0.win 3).blk t).view.set := by
  have hi0 : (i 0).val < 4096 := idx2_lt0 i
  have hi1 : (i 1).val < 256 := idx2_lt1 i
  have hN : (i 0).val / 1024 < cfg0.N := lt_of_lt_of_eq (by omega : (i 0).val / 1024 < 4) N_0.symm
  refine ⟨⟨(i 0).val / 1024, hN⟩, flush0_3 _, ?_⟩
  rw [mem_blk3]
  obtain ⟨-, -, -, -, -, -, e0, e1⟩ := idx_facts ⟨(i 0).val / 1024, hN⟩
  intro a
  match a with
  | ⟨0, _⟩ =>
    show win0_3.index ⟨(i 0).val / 1024, hN⟩ 0 * 1024 ≤ (i 0).val ∧ (i 0).val < win0_3.index ⟨(i 0).val / 1024, hN⟩ 0 * 1024 + 1024
    rw [e0]; show (i 0).val / 1024 * 1024 ≤ (i 0).val ∧ (i 0).val < (i 0).val / 1024 * 1024 + 1024; omega
  | ⟨1, _⟩ =>
    show win0_3.index ⟨(i 0).val / 1024, hN⟩ 1 * 256 ≤ (i 1).val ∧ (i 1).val < win0_3.index ⟨(i 0).val / 1024, hN⟩ 1 * 256 + 256
    rw [e1]; omega

section Arrays
variable (V : (c : Dev nD) → (b : Ref sig .tc) → Buf (Elt Ideal) ((c : Thread nD τ).loc b))

/-- THE FIRST OUTPUT ARRAY after the four points: the row-normalised first argument as the region found it. -/
theorem final2 (c : Dev nD) : (dat0 V c).arrAt 2 cfg0.N = nrm (V c main_arg0) :=
  (dat0 V c).arrAt_eq_of_cover 2 (nrm (V c main_arg0)) (fun t _ => flushed2_eq V c t) cover2

/-- THE SECOND OUTPUT ARRAY after the four points: the row-normalised second argument as the region found it. -/
theorem final3 (c : Dev nD) : (dat0 V c).arrAt 3 cfg0.N = nrm (V c main_arg1) :=
  (dat0 V c).arrAt_eq_of_cover 3 (nrm (V c main_arg1)) (fun t _ => flushed3_eq V c t) cover3

end Arrays

end Cert.Contrast.Normalize

end
-- ==== Proof.Normalize.lean ====
/-
  The first kernel read as a value: when the second kernel is entered, its two operand arrays hold the launch's two
  arguments row-normalised — each entry over the larger of its row's Euclidean norm and ε.
-/
import proofs.«169810_j2911987827023_2_alg».proof.Proof.NormArray

noncomputable section

namespace Cert.Contrast.Normalize

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- When the second kernel is entered its first operand array holds the row-normalised first argument of the launch. -/
theorem xn_apply (c : Dev nD) (i : Fin 4096) (k : Fin 256) :
    (V1 (F := Ideal) m ρ c (Pipeline.arrRef spec1 0) : S4096x256.Idx → EReal) (ix2 i k)
      = unit (m ((c.tc : Thread nD τ).loc main_arg0)) i k := by
  have h : V1 (F := Ideal) m ρ c (Pipeline.arrRef spec1 0) = nrm (m ((c.tc : Thread nD τ).loc main_arg0)) :=
    (W1_arr m ρ c 2).trans (final2 (V0 m ρ) c)
  rw [h, nrm_apply]

/-- … and its second operand array the row-normalised second argument. -/
theorem yn_apply (c : Dev nD) (i : Fin 4096) (k : Fin 256) :
    (V1 (F := Ideal) m ρ c (Pipeline.arrRef spec1 1) : S4096x256.Idx → EReal) (ix2 i k)
      = unit (m ((c.tc : Thread nD τ).loc main_arg1)) i k := by
  have h : V1 (F := Ideal) m ρ c (Pipeline.arrRef spec1 1) = nrm (m ((c.tc : Thread nD τ).loc main_arg1)) :=
    (W1_arr m ρ c 3).trans (final3 (V0 m ρ) c)
  rw [h, nrm_apply]

end Cert.Contrast.Normalize

end
-- ==== Proof.TileAcc.lean ====
/-
  The row-tiled accumulation's two cases read as values: what one grid point leaves in the 1 × 1 total, as a
  function of the two whole input arrays and of the total before it.
-/
import proofs.«169810_j2911987827023_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.Contrast.Tiles

open Cert.KernelIdeal Cert.KernelIdeal.Gen

variable {F : FTy → Type} [FloatOps F] [Named F]

theorem hz2 : (![0, 0] : Fin 2 → Nat) = fun _ => 0 := funext fun a => by fin_cases a <;> rfl

/-- The 128 rows of tile `i`, as a rectangle of a 4096 × 256 array. -/
abbrev tileRect (i : grid1.Coords) : Rect S4096x256 := Rect.unit (s := S4096x256) (k1_off1 i) S128x256.size (k1_off1_inb i)

/-- The 128 rows of tile `i` of an array. -/
abbrev tileOf (i : grid1.Coords) (x : Vec F S4096x256 .bf16) : Vec F S128x256 .bf16 := View.ld (Val := Elt F) x (tileRect i)

/-- What one grid point makes of the two arrays and the total before it: the total plus the tile's partial sum. -/
def tilePay (i : grid1.Coords) (x0 x1 : Vec F S4096x256 .bf16) (acc : Vec F S1x1 .f32) : FVec F S1x1 .f32 :=
  k1_pay13 (k1_pay5 (tileOf i x0) x1) (k1_pay6 (tileOf i x1) x0) (k1_pay8 i (tileOf i x0) x0) (k1_pay9 i (tileOf i x1) x1)
    (k1_pay10 i (tileOf i x0) x1) (k1_pay11 (tileOf i x0) x1) acc

/-- A later grid point leaves the total it found plus its tile's partial sum. -/
theorem out_B (c : Dev nD) (i : grid1.Coords) (a1 : Memref sig .tc .vmem S4096x256 .bf16) (h1 : a1.IsWhole)
    (a2 : Memref sig .tc .vmem S4096x256 .bf16) (h2 : a2.IsWhole) (a3 : Memref sig .tc .vmem S1x1 .f32) (h3 : a3.IsWhole)
    (hc : ¬cond1_0 i) (x0 x1 : Vec F S4096x256 .bf16) (xo : Vec F S1x1 .f32) :
    out1_B_2 c i a1 h1 a2 h2 a3 h3 hc x0 x1 xo = tilePay i x0 x1 xo := by
  unfold out1_B_2
  rw [View.read_writes_eq_canon _ _ _ (cover1_B_2 c i a1 h1 a2 h2 a3 h3 hc x0 x1 xo)]
  unfold kernelRun1_B
  dsimp only
  sl_unfold_words
  rw [View.canon_unit_zero hz2]
  simp only [View.readAt_eq_ld, h1.read_unread, h2.read_unread, h3.read_unread, View.ld_unit_zero (S := S4096x256) hz2,
    View.ld_unit_zero (S := S1x1) hz2]
  rfl

/-- The first grid point leaves zero plus its tile's partial sum. -/
theorem out_A (c : Dev nD) (i : grid1.Coords) (a1 : Memref sig .tc .vmem S4096x256 .bf16) (h1 : a1.IsWhole)
    (a2 : Memref sig .tc .vmem S4096x256 .bf16) (h2 : a2.IsWhole) (a3 : Memref sig .tc .vmem S1x1 .f32) (h3 : a3.IsWhole)
    (hc : cond1_0 i) (x0 x1 : Vec F S4096x256 .bf16) :
    out1_A_2 c i a1 h1 a2 h2 a3 h3 hc x0 x1 = tilePay i x0 x1 (k1_pay12 (F := F)) := by
  unfold out1_A_2
  rw [View.read_writes_eq_canon _ _ _ (cover1_A_2 c i a1 h1 a2 h2 a3 h3 hc x0 x1)]
  unfold kernelRun1_A
  dsimp only
  sl_unfold_words
  rw [View.canon_cons_unit_zero (S := S1x1) hz2]
  simp only [View.readCov_unit_zero (S := S1x1) _ hz2, View.readAt_eq_ld, h1.read_unread, h2.read_unread,
    View.ld_unit_zero (S := S4096x256) hz2]
  rfl

end Cert.Contrast.Tiles

end
-- ==== Proof.LibColumnCast.lean ====
/-
  A vector cast to a one-column matrix: the companion of the library's row forms `shapeCast_a_1a_apply` /
  `shapeCast_1a_a_apply` (a trailing unit axis instead of a leading one).
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibColumnCast
-- ==== Proof.TileOps.lean ====
/-
  The operations of the row-tiled accumulation read at an index, on the extended reals: a tile of scaled inner
  products (a matrix product into a zero accumulator, contracting the second axis of both operands, times the
  temperature word), the diagonal mask of a tile (row `128 t + r` against column `j`, compared as 32-bit words),
  a row sum and a row maximum kept as a one-column matrix, and that column broadcast back over the row.
-/
import proofs.«169810_j2911987827023_2_alg».proof.Proof.Gen.KernelIdeal.Skeleton
import proofs.«169810_j2911987827023_2_alg».proof.Proof.Spec
import proofs.«169810_j2911987827023_2_alg».proof.Proof.LibColBroadcast
import proofs.«169810_j2911987827023_2_alg».proof.Proof.LibColumnCast
import Idealize.ShloMosaic.Lib.Pipeline.Value
import Idealize.ShloMosaic.Lib.ValueIdx
import Idealize.ShloMosaic.PureOps.Ideal.Laws
import Idealize.ShloMosaic.PureOps.IdealRules

noncomputable section

namespace Cert.Contrast.Tiles

open Cert.KernelIdeal Cert.KernelIdeal.Gen Idealize.ShloMosaic Idealize.ShloMosaic.ValueIdx

/-- The global row that local row `r` of tile `t` stands for. -/
def row (t : ℕ) (r : Fin 128) : Fin 4096 := ⟨(128 * t + r.val) % 4096, Nat.mod_lt _ (by norm_num)⟩

/-! ## The float words -/

/-- The word `0xFF800000` is −∞. -/
theorem negInf_word : Ideal.ofBits .f32 0xFF800000#32 = (⊥ : EReal) := by
  simp [Ideal.ofBits, Ideal.ieee]

/-- The named masking constant is −∞ on the extended reals. -/
theorem negBig : Named.named (F := Ideal) κ "neg_big" (φ := .f32) 0xFF333332#32 = (⊥ : EReal) :=
  IdealRules.named_const.ideal_named_scalar _ _ _ _ rfl

/-! ## The diagonal mask -/

/-- Row `128 t + r` and column `j` compared as 32-bit words: equal words iff equal numbers, below 4096. -/
theorem word_eq_iff (t r j : ℕ) (ht : t < 32) (hr : r < 128) (hj : j < 4096) :
    (BitVec.ofNat 32 t * 128#32 + BitVec.ofNat 32 r = BitVec.ofNat 32 j) ↔ (128 * t + r) % 4096 = j := by
  rw [← BitVec.toNat_inj]
  simp only [BitVec.toNat_add, BitVec.toNat_mul, BitVec.toNat_ofNat, Nat.reducePow]
  omega

/-- The mask of tile `t` at `(r, j)` selects exactly the diagonal entry `row t r = j`. -/
theorem select_mask (i : grid1.Coords) (t : ℕ) (hi : (i 0).val = t) (ht : t < 32) (r : Fin 128) (j : Fin 4096)
    {α : Type} (x y : α) :
    Scalar.select (k1_pay7 i (ix2 r j)) x y = if row t r = j then x else y := by
  have e : k1_pay7 i (ix2 r j)
      = BitVec.ofBool (BitVec.ofNat 32 (i 0).val * 128#32 + BitVec.ofNat 32 r.val == BitVec.ofNat 32 j.val) := by
    unfold k1_pay7
    show IntOp.cmpi .eq (IntOp.addi _ (iota .tc S128x4096 32 [0] iota_S128x4096_d0_w32 (ix2 r j)))
      (iota .tc S128x4096 32 [1] iota_S128x4096_d1_w32 (ix2 r j)) = _
    rw [iota_single_apply, iota_single_apply]
    rfl
  rw [e, hi]
  unfold Scalar.select
  by_cases h : row t r = j
  · have hw := (word_eq_iff t r.val j.val ht r.isLt j.isLt).mpr (Fin.ext_iff.mp h)
    have hb : (BitVec.ofNat 32 t * 128#32 + BitVec.ofNat 32 r.val == BitVec.ofNat 32 j.val) = true := beq_iff_eq.mpr hw
    rw [if_pos h, hb]; simp
  · have hw : ¬(BitVec.ofNat 32 t * 128#32 + BitVec.ofNat 32 r.val = BitVec.ofNat 32 j.val) :=
      fun hw => h (Fin.ext ((word_eq_iff t r.val j.val ht r.isLt j.isLt).mp hw))
    have hb : (BitVec.ofNat 32 t * 128#32 + BitVec.ofNat 32 r.val == BitVec.ofNat 32 j.val) = false :=
      beq_eq_false_iff_ne.mpr hw
    rw [if_neg h, hb]; simp

/-! ## A tile of scaled inner products -/

/-- The left operand's row coordinate is the output's row. -/
theorem lhsIdx_0 (i : S128x4096.Idx) (q : dot_S128x256_S4096x256_S128x4096_1_1_0_0_n_n.contr.Idx) :
    (dot_S128x256_S4096x256_S128x4096_1_1_0_0_n_n.lhsIdx i q 0).val = (i 0).val := by
  unfold DotDims.lhsIdx
  rw [dif_neg (show ¬(0 : Fin S128x256.rank) ∈ dot_S128x256_S4096x256_S128x4096_1_1_0_0_n_n.lhsBatch by decide),
    dif_pos (show (0 : Fin S128x256.rank) ∈ dot_S128x256_S4096x256_S128x4096_1_1_0_0_n_n.lhsNonContracting by decide)]
  rfl
/-- The left operand's column coordinate is the contraction's. -/
theorem lhsIdx_1 (i : S128x4096.Idx) (q : dot_S128x256_S4096x256_S128x4096_1_1_0_0_n_n.contr.Idx) :
    (dot_S128x256_S4096x256_S128x4096_1_1_0_0_n_n.lhsIdx i q 1).val = (q ⟨0, by decide⟩).val :=
  dot_S128x256_S4096x256_S128x4096_1_1_0_0_n_n.lhsIdx_val_of_single rfl i q
/-- The right operand's row coordinate is the output's column. -/
theorem rhsIdx_0 (i : S128x4096.Idx) (q : dot_S128x256_S4096x256_S128x4096_1_1_0_0_n_n.contr.Idx) :
    (dot_S128x256_S4096x256_S128x4096_1_1_0_0_n_n.rhsIdx i q 0).val = (i 1).val := by
  unfold DotDims.rhsIdx
  rw [dif_neg (show ¬(0 : Fin S4096x256.rank) ∈ dot_S128x256_S4096x256_S128x4096_1_1_0_0_n_n.rhsBatch by decide),
    dif_pos (show (0 : Fin S4096x256.rank) ∈ dot_S128x256_S4096x256_S128x4096_1_1_0_0_n_n.rhsNonContracting by decide)]
  rfl
/-- The right operand's column coordinate is the contraction's. -/
theorem rhsIdx_1 (i : S128x4096.Idx) (q : dot_S128x256_S4096x256_S128x4096_1_1_0_0_n_n.contr.Idx) :
    (dot_S128x256_S4096x256_S128x4096_1_1_0_0_n_n.rhsIdx i q 1).val = (q ⟨0, by decide⟩).val :=
  dot_S128x256_S4096x256_S128x4096_1_1_0_0_n_n.rhsIdx_val_of_single rfl i q

/-- The matrix product of a 128-row block with all 4096 rows, contracting the second axis of both, into a zero
    accumulator: at `(r, j)` the inner product of row `r` of the block and row `j` of the array. -/
theorem dotTile_apply (L : FVec Ideal S128x256 .bf16) (R : FVec Ideal S4096x256 .bf16) (r : Fin 128) (j : Fin 4096) :
    matmul dot_S128x256_S4096x256_S128x4096_1_1_0_0_n_n none L R (constant S128x4096 .f32 0x00000000#32) (ix2 r j)
      = ∑ k : Fin 256, L (ix2 r k) * R (ix2 j k) := by
  refine (Ideal.matmul_constant_zero_apply dot_S128x256_S4096x256_S128x4096_1_1_0_0_n_n none L R (ix2 r j)).trans ?_
  rw [← Equiv.sum_comp (contrEquiv1 dot_S128x256_S4096x256_S128x4096_1_1_0_0_n_n 256 rfl rfl).symm]
  refine Finset.sum_congr rfl fun k _ => ?_
  have hk := contrEquiv1_symm_val dot_S128x256_S4096x256_S128x4096_1_1_0_0_n_n 256 rfl rfl k
  have el : dot_S128x256_S4096x256_S128x4096_1_1_0_0_n_n.lhsIdx (ix2 r j)
      ((contrEquiv1 dot_S128x256_S4096x256_S128x4096_1_1_0_0_n_n 256 rfl rfl).symm k) = ix2 r k :=
    funext fun a => Fin.ext (by
      match a with
      | ⟨0, _⟩ => exact lhsIdx_0 _ _
      | ⟨1, _⟩ => exact (lhsIdx_1 _ _).trans hk)
  have er : dot_S128x256_S4096x256_S128x4096_1_1_0_0_n_n.rhsIdx (ix2 r j)
      ((contrEquiv1 dot_S128x256_S4096x256_S128x4096_1_1_0_0_n_n 256 rfl rfl).symm k) = ix2 j k :=
    funext fun a => Fin.ext (by
      match a with
      | ⟨0, _⟩ => exact rhsIdx_0 _ _
      | ⟨1, _⟩ => exact (rhsIdx_1 _ _).trans hk)
  rw [el, er]

/-! ## Row reductions kept as a column, and the column spread back -/

/-- A row sum, kept as a one-column matrix: at `(r, ·)` the sum of row `r`. -/
theorem rowSum_apply (src : FVec Ideal S128x4096 .f32) (r : Fin 128) (u : Fin 1) :
    shapeCast S128x1 (multiReduction .add [1] S128 src 0x00000000#32 reduces_S128x4096_S128 (.inl rfl) rfl)
        shapeCasts_S128_S128x1 (ix2 r u)
      = ∑ j : Fin 4096, src (ix2 r j) := by
  refine (Cert.LibColumnCast.shapeCast_a_a1_apply _ shapeCasts_S128_S128x1 r u).trans ?_
  refine (Ideal.multiReduction_add_single src 0x00000000#32 reduces_S128x4096_S128 (.inl rfl) rfl (ix1 r)).trans ?_
  exact Finset.sum_congr rfl fun k _ => congrArg src (funext fun a => Fin.ext (by
    match a with
    | ⟨0, _⟩ => rfl
    | ⟨1, _⟩ => rfl))

/-- A row maximum from −∞, kept as a one-column matrix: at `(r, ·)` the maximum of row `r`. -/
theorem rowMax_apply (src : FVec Ideal S128x4096 .f32) (r : Fin 128) (u : Fin 1) :
    shapeCast S128x1 (multiReduction .maximumf [1] S128 src 0xFF800000#32 reduces_S128x4096_S128 (.inl rfl) rfl)
        shapeCasts_S128_S128x1 (ix2 r u)
      = rowmax fun j : Fin 4096 => src (ix2 r j) := by
  refine (Cert.LibColumnCast.shapeCast_a_a1_apply _ shapeCasts_S128_S128x1 r u).trans ?_
  refine (Ideal.multiReduction_maximumf_single src 0xFF800000#32 reduces_S128x4096_S128 (.inl rfl) rfl (ix1 r)).trans ?_
  unfold rowmax
  rw [Ideal.ofBits_def, negInf_word]
  exact Finset.fold_congr fun k _ => congrArg src (funext fun a => Fin.ext (by
    match a with
    | ⟨0, _⟩ => rfl
    | ⟨1, _⟩ => rfl))

/-- A one-column matrix spread over the row: at `(r, j)` the column's entry of row `r`. -/
theorem colSpread_apply (v : FVec Ideal S128x1 .f32) (r : Fin 128) (j : Fin 4096) :
    broadcastTo S128x4096 v broadcasts_S128x1_S128x4096 (ix2 r j) = v (ix2 r (0 : Fin 1)) :=
  Cert.LibColBroadcast.broadcastTo_a1_ab_apply v broadcasts_S128x1_S128x4096 r j

/-- The sum down a one-column matrix, kept as a 1 × 1 matrix: the sum of the column. -/
theorem colSum_apply (src : FVec Ideal S128x1 .f32) (y : S1x1.Idx) :
    shapeCast S1x1 (multiReduction .add [0] S1 src 0x00000000#32 reduces_S128x1_S1 (.inl rfl) rfl) shapeCasts_S1_S1x1 y
      = ∑ r : Fin 128, src (ix2 r (0 : Fin 1)) := by
  obtain ⟨p, q, rfl⟩ : ∃ (p : Fin 1) (q : Fin 1), y = ix2 p q := ⟨y 0, y 1, eq_ix2 y⟩
  refine (Cert.LibColumnCast.shapeCast_a_a1_apply _ shapeCasts_S1_S1x1 p q).trans ?_
  refine (Ideal.multiReduction_add_single src 0x00000000#32 reduces_S128x1_S1 (.inl rfl) rfl (ix1 p)).trans ?_
  exact Finset.sum_congr rfl fun k _ => congrArg src (funext fun a => Fin.ext (by
    match a with
    | ⟨0, _⟩ => rfl
    | ⟨1, _⟩ => show (p : ℕ) = 0; omega))

end Cert.Contrast.Tiles

end
-- ==== Proof.TileSim.lean ====
/-
  The four similarity tiles of one row tile, the picked target logit and the first row maximum, read at an index.

  With the 128 rows of tile `t` of the two normalised families loaded as blocks and the families themselves loaded
  whole, each tile is a block of scaled inner products; two of them have the diagonal entry (global row = column)
  replaced by −∞; the target logit of a row is picked out of its row by the same mask and a sum.
-/
import proofs.«169810_j2911987827023_2_alg».proof.Proof.TileOps

noncomputable section

namespace Cert.KernelIdeal.TileSim

open Cert.KernelIdeal Cert.KernelIdeal.Gen Idealize.ShloMosaic Idealize.ShloMosaic.ValueIdx Cert.Contrast Cert.Contrast.Tiles

/-- A tile of scaled products as the payloads spell it: the block and the array through identity casts, multiplied
    into a zero accumulator, times the splat of the word of 2. -/
abbrev tile (L : Vec Ideal S128x256 .bf16) (R : Vec Ideal S4096x256 .bf16) : FVec Ideal S128x4096 .f32 :=
  mulf (matmul dot_S128x256_S4096x256_S128x4096_1_1_0_0_n_n none
      (shapeCast S128x256 L shapeCasts_S128x256_S128x256 : FVec Ideal S128x256 .bf16)
      (shapeCast S4096x256 R shapeCasts_S4096x256_S4096x256 : FVec Ideal S4096x256 .bf16) (constant S128x4096 .f32 0x00000000#32))
    (broadcast S128x4096 (Scalar.ofBits (F := Ideal) .f32 0x40000000#32))

/-- Such a tile at `(r, j)`, when the block's row `r` is row `g r` of a family `p` and the array is a family `q`:
    the similarity of those two rows. -/
theorem tile_apply (L : Vec Ideal S128x256 .bf16) (R : Vec Ideal S4096x256 .bf16) (p q : Rows) (g : Fin 128 → Fin 4096)
    (hL : ∀ (r : Fin 128) (k : Fin 256), L (ix2 r k) = p (g r) k) (hR : ∀ (j : Fin 4096) (k : Fin 256), R (ix2 j k) = q j k)
    (r : Fin 128) (j : Fin 4096) : tile L R (ix2 r j) = sim p q (g r) j := by
  unfold tile
  rw [shapeCast_self, shapeCast_self]
  show matmul dot_S128x256_S4096x256_S128x4096_1_1_0_0_n_n none (L : FVec Ideal S128x256 .bf16) (R : FVec Ideal S4096x256 .bf16)
      (constant S128x4096 .f32 0x00000000#32) (ix2 r j) * Ideal.ofBits .f32 0x40000000#32 = _
  rw [dotTile_apply]
  unfold sim two
  exact congrArg (· * _) (Finset.sum_congr rfl fun k _ => by rw [hL, hR])

/-! ## The payloads as the operations they are -/

theorem pay5_eq (v3 : Vec Ideal S128x256 .bf16) (v10 : Vec Ideal S4096x256 .bf16) :
    k1_pay5 (F := Ideal) v3 v10 = tile v3 v10 := rfl

theorem pay6_eq (v6 : Vec Ideal S128x256 .bf16) (v8 : Vec Ideal S4096x256 .bf16) :
    k1_pay6 (F := Ideal) v6 v8 = tile v6 v8 := rfl

theorem pay8_eq (i : grid1.Coords) (v3 : Vec Ideal S128x256 .bf16) (v8 : Vec Ideal S4096x256 .bf16) :
    k1_pay8 (F := Ideal) i v3 v8
      = select (k1_pay7 i) (broadcast S128x4096 (Named.named (F := Ideal) κ "neg_big" (φ := .f32) 0xFF333332#32)) (tile v3 v8) := rfl

theorem pay9_eq (i : grid1.Coords) (v6 : Vec Ideal S128x256 .bf16) (v10 : Vec Ideal S4096x256 .bf16) :
    k1_pay9 (F := Ideal) i v6 v10
      = select (k1_pay7 i) (broadcast S128x4096 (Named.named (F := Ideal) κ "neg_big" (φ := .f32) 0xFF333332#32)) (tile v6 v10) := rfl

theorem pay10_eq (i : grid1.Coords) (v3 : Vec Ideal S128x256 .bf16) (v10 : Vec Ideal S4096x256 .bf16) :
    k1_pay10 (F := Ideal) i v3 v10
      = shapeCast S128x1 (multiReduction .add [1] S128
          (select (k1_pay7 i) (k1_pay5 (F := Ideal) v3 v10) (broadcast S128x4096 (Scalar.ofBits (F := Ideal) .f32 0x00000000#32)))
          0x00000000#32 reduces_S128x4096_S128 (.inl rfl) rfl) shapeCasts_S128_S128x1 := rfl

theorem pay11_eq (v3 : Vec Ideal S128x256 .bf16) (v10 : Vec Ideal S4096x256 .bf16) :
    k1_pay11 (F := Ideal) v3 v10
      = shapeCast S128x1 (multiReduction .maximumf [1] S128 (k1_pay5 (F := Ideal) v3 v10) 0xFF800000#32
          reduces_S128x4096_S128 (.inl rfl) rfl) shapeCasts_S128_S128x1 := rfl

/-! ## The tiles at an index -/

section
variable (t : ℕ) (a b : Rows) (v3 v6 : Vec Ideal S128x256 .bf16) (v8 v10 : Vec Ideal S4096x256 .bf16)

/-- The cross similarities of the tile's rows of the first family with the second. -/
theorem pay5_apply (h3 : ∀ (r : Fin 128) (k : Fin 256), v3 (ix2 r k) = a (row t r) k)
    (h10 : ∀ (j : Fin 4096) (k : Fin 256), v10 (ix2 j k) = b j k) (r : Fin 128) (j : Fin 4096) :
    k1_pay5 (F := Ideal) v3 v10 (ix2 r j) = sim a b (row t r) j := by
  rw [pay5_eq]; exact tile_apply v3 v10 a b (row t) h3 h10 r j

/-- The cross similarities of the tile's rows of the second family with the first. -/
theorem pay6_apply (h6 : ∀ (r : Fin 128) (k : Fin 256), v6 (ix2 r k) = b (row t r) k)
    (h8 : ∀ (j : Fin 4096) (k : Fin 256), v8 (ix2 j k) = a j k) (r : Fin 128) (j : Fin 4096) :
    k1_pay6 (F := Ideal) v6 v8 (ix2 r j) = sim b a (row t r) j := by
  rw [pay6_eq]; exact tile_apply v6 v8 b a (row t) h6 h8 r j

/-- The self-similarities of the first family with the diagonal at −∞. -/
theorem pay8_apply (i : grid1.Coords) (hi : (i 0).val = t) (ht : t < 32)
    (h3 : ∀ (r : Fin 128) (k : Fin 256), v3 (ix2 r k) = a (row t r) k)
    (h8 : ∀ (j : Fin 4096) (k : Fin 256), v8 (ix2 j k) = a j k) (r : Fin 128) (j : Fin 4096) :
    k1_pay8 (F := Ideal) i v3 v8 (ix2 r j) = msk a (row t r) j := by
  rw [pay8_eq]
  show Scalar.select (k1_pay7 i (ix2 r j)) (Named.named (F := Ideal) κ "neg_big" (φ := .f32) 0xFF333332#32) (tile v3 v8 (ix2 r j)) = _
  rw [select_mask i t hi ht r j, negBig, tile_apply v3 v8 a a (row t) h3 h8 r j]
  rfl

/-- The self-similarities of the second family with the diagonal at −∞. -/
theorem pay9_apply (i : grid1.Coords) (hi : (i 0).val = t) (ht : t < 32)
    (h6 : ∀ (r : Fin 128) (k : Fin 256), v6 (ix2 r k) = b (row t r) k)
    (h10 : ∀ (j : Fin 4096) (k : Fin 256), v10 (ix2 j k) = b j k) (r : Fin 128) (j : Fin 4096) :
    k1_pay9 (F := Ideal) i v6 v10 (ix2 r j) = msk b (row t r) j := by
  rw [pay9_eq]
  show Scalar.select (k1_pay7 i (ix2 r j)) (Named.named (F := Ideal) κ "neg_big" (φ := .f32) 0xFF333332#32) (tile v6 v10 (ix2 r j)) = _
  rw [select_mask i t hi ht r j, negBig, tile_apply v6 v10 b b (row t) h6 h10 r j]
  rfl

/-- The target logit of each row of the tile, picked by the mask and a row sum. -/
theorem pay10_apply (i : grid1.Coords) (hi : (i 0).val = t) (ht : t < 32)
    (h3 : ∀ (r : Fin 128) (k : Fin 256), v3 (ix2 r k) = a (row t r) k)
    (h10 : ∀ (j : Fin 4096) (k : Fin 256), v10 (ix2 j k) = b j k) (r : Fin 128) :
    k1_pay10 (F := Ideal) i v3 v10 (ix2 r (0 : Fin 1)) = diag a b (row t r) := by
  rw [pay10_eq, rowSum_apply]
  unfold diag
  refine Finset.sum_congr rfl fun j _ => ?_
  show Scalar.select (k1_pay7 i (ix2 r j)) (k1_pay5 (F := Ideal) v3 v10 (ix2 r j)) (Ideal.ofBits .f32 0x00000000#32) = _
  rw [select_mask i t hi ht r j, pay5_apply t a b v3 v10 h3 h10 r j, Ideal.ofBits_zero_f32]

/-- The maximum of each row of the cross similarities. -/
theorem pay11_apply (h3 : ∀ (r : Fin 128) (k : Fin 256), v3 (ix2 r k) = a (row t r) k)
    (h10 : ∀ (j : Fin 4096) (k : Fin 256), v10 (ix2 j k) = b j k) (r : Fin 128) :
    k1_pay11 (F := Ideal) v3 v10 (ix2 r (0 : Fin 1)) = rowmax (sim a b (row t r)) := by
  rw [pay11_eq, rowMax_apply]
  exact congrArg rowmax (funext fun j => pay5_apply t a b v3 v10 h3 h10 r j)

end

end Cert.KernelIdeal.TileSim

end
-- ==== Proof.TileRow.lean ====
/-
  The second half of the row-tiled accumulation's payload, on the extended reals: from the four 128 × 4096 tiles of a
  row block (for each of the two row sets an unmasked and a masked tile), the picked target logits and the first tile's
  row maxima, the per-row term `2 · target − lse₁ − lse₂` — each `lse` the log-sum-exp of a row given as two halves,
  shifted by the larger of the halves' maxima —, summed over the block's 128 rows and added to the old accumulator.
-/
import proofs.«169810_j2911987827023_2_alg».proof.Proof.TileOps

noncomputable section

namespace Cert.KernelIdeal.TileRow

open Cert.KernelIdeal Cert.KernelIdeal.Gen Idealize.ShloMosaic Idealize.ShloMosaic.ValueIdx
open Cert.Contrast Cert.Contrast.Tiles

/-! ## The payload's three column operations, named -/

/-- The row maxima of a tile, from −∞, kept as a column. -/
def maxCol (src : FVec Ideal S128x4096 .f32) : FVec Ideal S128x1 .f32 :=
  shapeCast S128x1 (multiReduction .maximumf [1] S128 src 0xFF800000#32 reduces_S128x4096_S128 (.inl rfl) rfl)
    shapeCasts_S128_S128x1

/-- The row sums of `exp (a − mx)`, the column `mx` spread over each row, kept as a column. -/
def sumExpCol (a : FVec Ideal S128x4096 .f32) (mx : FVec Ideal S128x1 .f32) : FVec Ideal S128x1 .f32 :=
  shapeCast S128x1 (multiReduction .add [1] S128
      (exp (subf a (broadcastTo S128x4096 mx broadcasts_S128x1_S128x4096))) 0x00000000#32 reduces_S128x4096_S128 (.inl rfl) rfl)
    shapeCasts_S128_S128x1

/-- The log-sum-exp column of a row given as two tiles `a`, `b`, shifted by the column `mx`. -/
def lseCol (a b : FVec Ideal S128x4096 .f32) (mx : FVec Ideal S128x1 .f32) : FVec Ideal S128x1 .f32 :=
  addf mx (log (addf (sumExpCol a mx) (sumExpCol b mx)))

/-- At row `r` the maxima column holds the maximum of row `r`. -/
theorem maxCol_apply (src : FVec Ideal S128x4096 .f32) (r : Fin 128) :
    maxCol src (ix2 r (0 : Fin 1)) = rowmax fun j : Fin 4096 => src (ix2 r j) :=
  rowMax_apply src r 0

/-- At row `r` the shifted exponentials' sums column holds `∑ⱼ exp (a r j − mx r)`. -/
theorem sumExpCol_apply (a : FVec Ideal S128x4096 .f32) (mx : FVec Ideal S128x1 .f32) (r : Fin 128) :
    sumExpCol a mx (ix2 r (0 : Fin 1)) = ∑ j : Fin 4096, Ideal.exp (a (ix2 r j) - mx (ix2 r (0 : Fin 1))) := by
  refine (rowSum_apply _ r 0).trans ?_
  refine Finset.sum_congr rfl fun j _ => ?_
  show Ideal.exp (a (ix2 r j) - broadcastTo S128x4096 mx broadcasts_S128x1_S128x4096 (ix2 r j)) = _
  rw [colSpread_apply]

/-- At row `r`, when the two tiles' rows are `p` and `q` and the shift is the larger of their maxima, the
    log-sum-exp column holds `lse2 p q`. -/
theorem lseCol_apply (a b : FVec Ideal S128x4096 .f32) (mx : FVec Ideal S128x1 .f32) (r : Fin 128)
    (p q : Fin 4096 → EReal) (ha : ∀ j, a (ix2 r j) = p j) (hb : ∀ j, b (ix2 r j) = q j)
    (hm : mx (ix2 r (0 : Fin 1)) = max (rowmax p) (rowmax q)) :
    lseCol a b mx (ix2 r (0 : Fin 1)) = lse2 p q := by
  show mx (ix2 r (0 : Fin 1))
      + Ideal.log (sumExpCol a mx (ix2 r (0 : Fin 1)) + sumExpCol b mx (ix2 r (0 : Fin 1))) = _
  rw [sumExpCol_apply, sumExpCol_apply, hm]
  unfold lse2
  simp only [ha, hb]

/-! ## The payload -/

/-- At the ideal instance a scalar constant is the extended real its word denotes. -/
theorem scalar_ofBits_ideal (φ : FTy) (b : BitVec φ.bits) : Scalar.ofBits (F := Ideal) φ b = Ideal.ofBits φ b := rfl

/-- The payload's scalar constant 0x40000000 is the temperature's reciprocal `two`. -/
theorem two_word : Scalar.ofBits (F := Ideal) .f32 0x40000000#32 = two := scalar_ofBits_ideal .f32 _

/-- The payload is the old accumulator plus the column sum of `2 · target − lse₁ − lse₂`, in the named operations. -/
theorem pay13_eq (v14 v23 v30 v32 : FVec Ideal S128x4096 .f32) (v36 v38 : FVec Ideal S128x1 .f32)
    (v82 : Vec Ideal S1x1 .f32) :
    k1_pay13 (F := Ideal) v14 v23 v30 v32 v36 v38 v82
      = addf (shapeCast S1x1 v82 shapeCasts_S1x1_S1x1)
          (shapeCast S1x1 (multiReduction .add [0] S1
            (subf (subf (mulf (broadcast S128x1 (Scalar.ofBits .f32 0x40000000#32)) v36)
                (lseCol v14 v30 (maximumf v38 (maxCol v30))))
              (lseCol v32 v23 (maximumf (maxCol v32) (maxCol v23))))
            0x00000000#32 reduces_S128x1_S1 (.inl rfl) rfl) shapeCasts_S1_S1x1) := rfl

/-- THE PAYLOAD FROM ITS TILES: with the four tiles' rows `p1`, `q1`, `p2`, `q2`, the targets `dg` and the first
    tile's row maxima as given, the payload is the old accumulator plus the sum over the 128 rows of
    `2 · dg r − lse2 (p1 r) (q1 r) − lse2 (p2 r) (q2 r)`. -/
theorem pay13_of_tiles (v14 v23 v30 v32 : FVec Ideal S128x4096 .f32) (v36 v38 : FVec Ideal S128x1 .f32)
    (v82 : Vec Ideal S1x1 .f32)
    (p1 q1 p2 q2 : Fin 128 → Fin 4096 → EReal) (dg : Fin 128 → EReal)
    (h14 : ∀ (r : Fin 128) (j : Fin 4096), v14 (ix2 r j) = p1 r j) (h30 : ∀ (r : Fin 128) (j : Fin 4096), v30 (ix2 r j) = q1 r j)
    (h32 : ∀ (r : Fin 128) (j : Fin 4096), v32 (ix2 r j) = p2 r j) (h23 : ∀ (r : Fin 128) (j : Fin 4096), v23 (ix2 r j) = q2 r j)
    (h36 : ∀ r : Fin 128, v36 (ix2 r (0 : Fin 1)) = dg r)
    (h38 : ∀ r : Fin 128, v38 (ix2 r (0 : Fin 1)) = rowmax (p1 r)) :
    k1_pay13 (F := Ideal) v14 v23 v30 v32 v36 v38 v82
      = fun _ => v82 (ix2 (0 : Fin 1) (0 : Fin 1))
          + ∑ r : Fin 128, (two * dg r - lse2 (p1 r) (q1 r) - lse2 (p2 r) (q2 r)) := by
  refine (pay13_eq v14 v23 v30 v32 v36 v38 v82).trans ?_
  funext y
  have hy : y = ix2 (0 : Fin 1) (0 : Fin 1) := by
    funext a
    match a with
    | ⟨0, _⟩ => exact Fin.ext (Nat.lt_one_iff.mp (idx2_lt0 y))
    | ⟨1, _⟩ => exact Fin.ext (Nat.lt_one_iff.mp (idx2_lt1 y))
  refine (addf_apply _ _ y).trans ?_
  rw [shapeCast_self, colSum_apply, hy]
  refine congrArg (fun z => v82 (ix2 (0 : Fin 1) (0 : Fin 1)) + z) (Finset.sum_congr rfl fun r _ => ?_)
  have hm1 : maximumf v38 (maxCol v30) (ix2 r (0 : Fin 1)) = max (rowmax (p1 r)) (rowmax (q1 r)) := by
    rw [maximumf_apply, h38 r, maxCol_apply, show (fun j : Fin 4096 => v30 (ix2 r j)) = q1 r from funext (h30 r)]
  have hm2 : maximumf (maxCol v32) (maxCol v23) (ix2 r (0 : Fin 1)) = max (rowmax (p2 r)) (rowmax (q2 r)) := by
    rw [maximumf_apply, maxCol_apply, maxCol_apply, show (fun j : Fin 4096 => v32 (ix2 r j)) = p2 r from funext (h32 r),
      show (fun j : Fin 4096 => v23 (ix2 r j)) = q2 r from funext (h23 r)]
  rw [subf_apply, subf_apply, mulf_apply, broadcast_apply, two_word, h36 r, lseCol_apply v14 v30 _ r (p1 r) (q1 r) (h14 r) (h30 r) hm1,
    lseCol_apply v32 v23 _ r (p2 r) (q2 r) (h32 r) (h23 r) hm2]

end Cert.KernelIdeal.TileRow

end
-- ==== Proof.TilePayload.lean ====
/-
  What one row tile adds to the running total.

  The arithmetic of the second kernel body, from the loaded blocks to the new accumulator: the old accumulator
  plus the sum, over the 128 rows of tile `t`, of each row's contribution — twice its target logit less the
  log-sum-exp of each of the two rows of the score matrix it stands in.
-/
import proofs.«169810_j2911987827023_2_alg».proof.Proof.TileSim
import proofs.«169810_j2911987827023_2_alg».proof.Proof.TileRow

noncomputable section

namespace Cert.KernelIdeal.TilePayload

open Cert.KernelIdeal Cert.KernelIdeal.Gen Idealize.ShloMosaic Idealize.ShloMosaic.ValueIdx Cert.Contrast Cert.Contrast.Tiles

/-- The new accumulator after tile `t`: the old one plus the tile's partial sum. -/
theorem tile_payload (t : Fin 32) (i : grid1.Coords) (hi : (i 0).val = t.val) (a b : Cert.Contrast.Rows)
    (v3 v6 : Vec Ideal S128x256 .bf16) (v8 v10 : Vec Ideal S4096x256 .bf16) (v82 : Vec Ideal S1x1 .f32)
    (h3 : ∀ (r : Fin 128) (k : Fin 256), v3 (ix2 r k) = a ⟨(128 * t.val + r.val) % 4096, Nat.mod_lt _ (by norm_num)⟩ k)
    (h6 : ∀ (r : Fin 128) (k : Fin 256), v6 (ix2 r k) = b ⟨(128 * t.val + r.val) % 4096, Nat.mod_lt _ (by norm_num)⟩ k)
    (h8 : ∀ (j : Fin 4096) (k : Fin 256), v8 (ix2 j k) = a j k)
    (h10 : ∀ (j : Fin 4096) (k : Fin 256), v10 (ix2 j k) = b j k) :
    k1_pay13 (F := Ideal) (k1_pay5 v3 v10) (k1_pay6 v6 v8) (k1_pay8 i v3 v8) (k1_pay9 i v6 v10) (k1_pay10 i v3 v10) (k1_pay11 v3 v10) v82
      = fun _ => v82 (ix2 0 0) + Cert.Contrast.partK a b t.val := by
  have h3' : ∀ (r : Fin 128) (k : Fin 256), v3 (ix2 r k) = a (row t.val r) k := h3
  have h6' : ∀ (r : Fin 128) (k : Fin 256), v6 (ix2 r k) = b (row t.val r) k := h6
  refine (Cert.KernelIdeal.TileRow.pay13_of_tiles _ _ _ _ _ _ v82
    (fun r => sim a b (row t.val r)) (fun r => msk a (row t.val r)) (fun r => msk b (row t.val r)) (fun r => sim b a (row t.val r))
    (fun r => diag a b (row t.val r))
    (TileSim.pay5_apply t.val a b v3 v10 h3' h10)
    (TileSim.pay8_apply t.val a v3 v8 i hi t.isLt h3' h8)
    (TileSim.pay9_apply t.val b v6 v10 i hi t.isLt h6' h10)
    (TileSim.pay6_apply t.val a b v6 v8 h6' h8)
    (TileSim.pay10_apply t.val a b v3 v10 i hi t.isLt h3' h10)
    (TileSim.pay11_apply t.val a b v3 v10 h3' h10)).trans ?_
  rfl

end Cert.KernelIdeal.TilePayload

end
-- ==== Proof.Tiles.lean ====
/-
  The row-tiled accumulation read as a value: after grid point `n` the 1 × 1 total holds the running sum
  `accK a b n` of the tiles' partial sums, and the result array, written back once after the last point, ends
  holding `accK a b 31`.
-/
import proofs.«169810_j2911987827023_2_alg».proof.Proof.TileAcc
import proofs.«169810_j2911987827023_2_alg».proof.Proof.Spec
import proofs.«169810_j2911987827023_2_alg».proof.Proof.TilePayload
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.Contrast.Tiles

open Cert.KernelIdeal Cert.KernelIdeal.Gen

/-- Grid point `t`'s one coordinate is `t`. -/
theorem coords_val : ∀ t : Fin cfg1.N, ((grid1.coords t) 0).val = t.val :=
  (by decide +kernel : ∀ t : Fin grid1.N, ((grid1.coords t) 0).val = t.val)

/-- The rows of tile `i` of an array: local row `r` is row `128 t + r`. -/
theorem tileOf_apply (i : grid1.Coords) (t : ℕ) (hi : (i 0).val = t) (ht : t < 32) (x : Vec Ideal S4096x256 .bf16)
    (r : Fin 128) (k : Fin 256) :
    tileOf i x (ix2 r k) = x (ix2 (⟨(128 * t + r.val) % 4096, Nat.mod_lt _ (by norm_num)⟩ : Fin 4096) k) := by
  show x ((tileRect i).idx (ix2 r k)) = _
  refine congrArg x (funext fun a => Fin.ext ?_)
  match a with
  | ⟨0, _⟩ =>
    show k1_off1 i 0 + 1 * r.val = (128 * t + r.val) % 4096
    rw [k1_off1_eq]
    show 128 * (i 0).val + 1 * r.val = _
    rw [hi]; have := r.isLt; omega
  | ⟨1, _⟩ =>
    show k1_off1 i 1 + 1 * k.val = k.val
    rw [k1_off1_eq]
    show 0 + 1 * k.val = k.val
    omega

variable (V : (c : Dev nD) → (b : Ref sig .tc) → Buf (Elt Ideal) ((c : Thread nD τ).loc b)) (c : Dev nD)

/-- Both input windows hold the whole array at every point. -/
theorem iblk0_eq (t : Fin cfg1.N) : iblk1 V c 0 t = V c (Pipeline.arrRef spec1 0) := by
  unfold iblk1
  have hz' : (fun a => win1_0.index t a * main_v0_0.ty.shape.size a) = fun _ => 0 := funext fun a => by fin_cases a <;> rfl
  exact Memref.read_access_unit_zero (Elt Ideal) main_v0_0 hz' (fun a => by rw [congrFun hz' a]; simp) _
theorem iblk1_eq (t : Fin cfg1.N) : iblk1 V c 1 t = V c (Pipeline.arrRef spec1 1) := by
  unfold iblk1
  have hz' : (fun a => win1_1.index t a * main_v0_1.ty.shape.size a) = fun _ => 0 := funext fun a => by fin_cases a <;> rfl
  exact Memref.read_access_unit_zero (Elt Ideal) main_v0_1 hz' (fun a => by rw [congrFun hz' a]; simp) _

variable (a b : Cert.Contrast.Rows)

/-- One grid point, over any two arrays holding `a` and `b`: the total before it plus the tile's partial sum. -/
theorem point_of (i : grid1.Coords) (t : ℕ) (ht : t < 32) (hi : (i 0).val = t) (x0 x1 : Vec Ideal S4096x256 .bf16)
    (h0 : ∀ (j : Fin 4096) (k : Fin 256), x0 (ix2 j k) = a j k) (h1 : ∀ (j : Fin 4096) (k : Fin 256), x1 (ix2 j k) = b j k)
    (acc : Vec Ideal S1x1 .f32) :
    tilePay (F := Ideal) i x0 x1 acc = fun _ => acc (ix2 0 0) + Cert.Contrast.partK a b t :=
  Cert.KernelIdeal.TilePayload.tile_payload ⟨t, ht⟩ i hi a b (tileOf i x0) (tileOf i x1) x0 x1 acc
    (fun r k => (tileOf_apply i t hi ht x0 r k).trans (h0 _ k))
    (fun r k => (tileOf_apply i t hi ht x1 r k).trans (h1 _ k)) h0 h1

variable (ha : ∀ (i : Fin 4096) (k : Fin 256), V c (Pipeline.arrRef spec1 0) (ix2 i k) = a i k)
  (hb : ∀ (i : Fin 4096) (k : Fin 256), V c (Pipeline.arrRef spec1 1) (ix2 i k) = b i k)

include ha in
theorem blk0_apply (t : Fin cfg1.N) (j : Fin 4096) (k : Fin 256) :
    (iblk1 V c 0 t : Vec Ideal S4096x256 .bf16) (ix2 j k) = a j k :=
  (congrFun (iblk0_eq V c t) (ix2 j k)).trans (ha j k)
include hb in
theorem blk1_apply (t : Fin cfg1.N) (j : Fin 4096) (k : Fin 256) :
    (iblk1 V c 1 t : Vec Ideal S4096x256 .bf16) (ix2 j k) = b j k :=
  (congrFun (iblk1_eq V c t) (ix2 j k)).trans (hb j k)

include ha hb in
/-- THE RUNNING TOTAL: after grid point `n` the 1 × 1 buffer holds `accK a b n` — by induction on the point. -/
theorem outsAt_eq : ∀ (n : ℕ) (h : n < cfg1.N), outsAt1 (F := Ideal) V c n h = fun _ => Cert.Contrast.accK a b n
  | 0, h => by
    refine (outsAt1_A V c ⟨0, h⟩ rfl).trans ?_
    refine (out_A (F := Ideal) c (grid1.coords ⟨0, h⟩) (ms1_0 ⟨0, h⟩) (hs1_0 ⟨0, h⟩) (ms1_1 ⟨0, h⟩) (hs1_1 ⟨0, h⟩)
      (ms1_2 ⟨0, h⟩) (hs1_2 ⟨0, h⟩) ((hcond1_0 ⟨0, h⟩).mpr rfl) (iblk1 V c 0 ⟨0, h⟩) (iblk1 V c 1 ⟨0, h⟩)).trans ?_
    refine (point_of a b (grid1.coords ⟨0, h⟩) 0 (by norm_num) (coords_val ⟨0, h⟩) (iblk1 V c 0 ⟨0, h⟩) (iblk1 V c 1 ⟨0, h⟩)
      (blk0_apply V c a ha ⟨0, h⟩) (blk1_apply V c b hb ⟨0, h⟩) (k1_pay12 (F := Ideal))).trans ?_
    funext _
    show Ideal.ofBits .f32 0x00000000#32 + Cert.Contrast.partK a b 0 = 0 + Cert.Contrast.partK a b 0
    rw [Ideal.ofBits_zero_f32]
  | n + 1, h => by
    have hN : cfg1.N = 32 := N_1
    have hB : ¬(⟨n + 1, h⟩ : Fin cfg1.N).val % 32 = 0 := by dsimp only; omega
    refine (outsAt1_B V c ⟨n + 1, h⟩ hB).trans ?_
    refine (out_B (F := Ideal) c (grid1.coords ⟨n + 1, h⟩) (ms1_0 ⟨n + 1, h⟩) (hs1_0 ⟨n + 1, h⟩) (ms1_1 ⟨n + 1, h⟩) (hs1_1 ⟨n + 1, h⟩)
      (ms1_2 ⟨n + 1, h⟩) (hs1_2 ⟨n + 1, h⟩) (fun hh => hB ((hcond1_0 ⟨n + 1, h⟩).mp hh)) (iblk1 V c 0 ⟨n + 1, h⟩) (iblk1 V c 1 ⟨n + 1, h⟩)
      (outsAt1 V c n (Nat.lt_of_succ_lt h))).trans ?_
    refine (point_of a b (grid1.coords ⟨n + 1, h⟩) (n + 1) (by omega) (coords_val ⟨n + 1, h⟩) (iblk1 V c 0 ⟨n + 1, h⟩) (iblk1 V c 1 ⟨n + 1, h⟩)
      (blk0_apply V c a ha ⟨n + 1, h⟩) (blk1_apply V c b hb ⟨n + 1, h⟩) (outsAt1 V c n (Nat.lt_of_succ_lt h))).trans ?_
    funext _
    show outsAt1 V c n _ (ix2 0 0) + Cert.Contrast.partK a b (n + 1) = Cert.Contrast.accK a b n + Cert.Contrast.partK a b (n + 1)
    rw [outsAt_eq n]

include ha hb in
/-- The one write-back, after the last point, writes the last running total: the block is the whole 1 × 1 array. -/
theorem flushed_eq (t : Fin cfg1.N) (hf : (cfg1.win 2).flush t = true) :
    (dat1 (F := Ideal) V c).flushed 2 t = ((cfg1.win 2).blk t).view.read (Elt Ideal) (fun _ => Cert.Contrast.accK a b 31) := by
  have hN : cfg1.N = 32 := N_1
  have h31 : t.val = 31 := by have := (flush1_2 t).mp hf; have := t.isLt; omega
  show (cfg1.win 2).cut (grid1.coords t) ((dat1 V c).after 2 t) = _
  rw [after1_2, outsAt_eq V c a b ha hb, h31]
  have hz' : (fun a => win1_2.index t a * main_v1.ty.shape.size a) = fun _ => 0 := funext fun a => by fin_cases a <;> rfl
  exact (Memref.read_access_unit_zero (Elt Ideal) main_v1 hz' (fun a => by rw [congrFun hz' a]; simp) _).symm

/-- The last grid point. -/
def tLast : Fin cfg1.N := ⟨31, by rw [show cfg1.N = 32 from N_1]; norm_num⟩

include ha hb in
/-- THE RESULT: the second call's output array ends holding the running total after the last tile. -/
theorem region1_total : (dat1 (F := Ideal) V c).arrAt 2 cfg1.N = fun _ => Cert.Contrast.accK a b 31 :=
  (dat1 (F := Ideal) V c).arrAt_eq_of_cover 2 (fun _ => Cert.Contrast.accK a b 31) (flushed_eq V c a b ha hb) fun i =>
    ⟨tLast, (flush1_2 tLast).mpr rfl, by
      show i ∈ ((View.whole main_v1).slice (win1_2.rect tLast)).set
      rw [View.set_slice_whole, Rect.mem_set_unit]
      intro ax
      have h0 : (i 0 : Nat) < 1 := (i 0).isLt
      have h1 : (i 1 : Nat) < 1 := (i 1).isLt
      match ax with
      | ⟨0, _⟩ => exact ⟨Nat.zero_le _, h0⟩
      | ⟨1, _⟩ => exact ⟨Nat.zero_le _, h1⟩⟩

end Cert.Contrast.Tiles

end
-- ==== Proof.RefAfter.lean ====
/-
  What the reference's result buffer holds after its 120 host operations, from any starting contents: the last of the
  stages `val_<buffer>` (the reference read one operation at a time), of the two arguments' contents.

  The operations' fold is evaluated operation by operation. Two things stand between that evaluation and the stages'
  composed term. An operand inside a two-piece `concatenate` is only reached through a congruence that rewrites the
  pieces and keeps the joining fact, which speaks of the pieces' shapes alone. And a called function (the norm, the
  log-softmax) writes and reads every value of its body through a typed reference, a move of the contents to the
  buffer's own type and back: the two moves cancel, and at a literal buffer a single move is the identity. With both
  removed and the stages' definitions opened, the two sides are one term.
-/
import proofs.«169810_j2911987827023_2_alg».proof.Proof.RefOps

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- Two joined pieces may be rewritten piece by piece: the joining fact speaks of the pieces' shapes only. -/
theorem concatenate_pair_congr {α : Type} {t s₁ s₂ : Shape} {a : Fin t.rank} {x₁ y₁ : s₁.Idx → α} {x₂ y₂ : s₂.Idx → α}
    {h : Shape.Concatenates [s₁, s₂] t a} (e₁ : x₁ = y₁) (e₂ : x₂ = y₂) :
    concatenate t a [⟨s₁, x₁⟩, ⟨s₂, x₂⟩] h = concatenate t a [⟨s₁, y₁⟩, ⟨s₂, y₂⟩] h := by
  subst e₁ e₂; rfl
attribute [local congr] concatenate_pair_congr

/-- Contents moved to a buffer's own type and back are the contents. -/
theorem ofBuf_toBuf' {T : BufTy} (x : TRef sig T) (v : T.Contents (Elt F)) : x.ofBuf (x.toBuf v) = v := by
  obtain ⟨r, h, h2, h3⟩ := x; subst h; rfl

/-! At a literal buffer the move is the identity: the six buffers where a called function meets @main (its argument going
    in, its result coming out). -/
theorem toBuf_main_v58 (v : (⟨S8192x8192, .f32⟩ : BufTy).Contents (Elt F)) : (TRef.of (T := ⟨S8192x8192, .f32⟩) main_v58).toBuf v = v := rfl
theorem toBuf_main_v0 (v : (⟨S4096x1, .f32⟩ : BufTy).Contents (Elt F)) : (TRef.of (T := ⟨S4096x1, .f32⟩) main_v0).toBuf v = v := rfl
theorem toBuf_main_v5 (v : (⟨S4096x1, .f32⟩ : BufTy).Contents (Elt F)) : (TRef.of (T := ⟨S4096x1, .f32⟩) main_v5).toBuf v = v := rfl
theorem ofBuf_main_v56 (v : (⟨S8192x8192, .f32⟩ : BufTy).Contents (Elt F)) : (TRef.of (T := ⟨S8192x8192, .f32⟩) main_v56).ofBuf v = v := rfl
theorem ofBuf_main_arg0 (v : (⟨S4096x256, .f32⟩ : BufTy).Contents (Elt F)) : (TRef.of (T := ⟨S4096x256, .f32⟩) main_arg0).ofBuf v = v := rfl
theorem ofBuf_main_arg1 (v : (⟨S4096x256, .f32⟩ : BufTy).Contents (Elt F)) : (TRef.of (T := ⟨S4096x256, .f32⟩) main_arg1).ofBuf v = v := rfl

set_option maxRecDepth 65536 in
set_option maxHeartbeats 48000000 in
/-- The result buffer after the 120 operations, from any contents `V`: the last stage, of the two arguments' contents. -/
theorem after_main_v76 (V : Valuation τ sig (Elt F)) : after (ops (F := F)) V (Proc.devRef .tc main_v76)
    = ReadP.val_main_v76 (F := F) (V (Proc.devRef .tc main_arg0)) (V (Proc.devRef .tc main_arg1)) := by
  after_results_simp
  simp only [ofBuf_toBuf', toBuf_main_v58, toBuf_main_v0, toBuf_main_v5, ofBuf_main_v56, ofBuf_main_arg0, ofBuf_main_arg1]
  simp only [ReadP.val_main_call0_v0, ReadP.val_main_call0_cst, ReadP.val_main_call0_v1, ReadP.val_main_call0_v2, ReadP.val_main_v0, ReadP.val_main_cst, ReadP.val_main_v1, ReadP.val_main_v2, ReadP.val_main_v3, ReadP.val_main_v4, ReadP.val_main_call1_v0, ReadP.val_main_call1_cst, ReadP.val_main_call1_v1, ReadP.val_main_call1_v2, ReadP.val_main_v5, ReadP.val_main_cst_0, ReadP.val_main_v6, ReadP.val_main_v7, ReadP.val_main_v8, ReadP.val_main_v9, ReadP.val_main_v10, ReadP.val_main_v11, ReadP.val_main_cst_1, ReadP.val_main_v12, ReadP.val_main_v13, ReadP.val_main_v14, ReadP.val_main_v15, ReadP.val_main_cst_2, ReadP.val_main_v16, ReadP.val_main_v17, ReadP.val_main_v18, ReadP.val_main_v19, ReadP.val_main_cst_3, ReadP.val_main_v20, ReadP.val_main_v21, ReadP.val_main_v22, ReadP.val_main_c, ReadP.val_main_v23, ReadP.val_main_v24, ReadP.val_main_c_4, ReadP.val_main_v25, ReadP.val_main_v26, ReadP.val_main_v27, ReadP.val_main_c_5, ReadP.val_main_v28, ReadP.val_main_v29, ReadP.val_main_c_6, ReadP.val_main_v30, ReadP.val_main_v31, ReadP.val_main_v32, ReadP.val_main_v33, ReadP.val_main_v34, ReadP.val_main_v35, ReadP.val_main_cst_7, ReadP.val_main_v36, ReadP.val_main_v37, ReadP.val_main_c_8, ReadP.val_main_v38, ReadP.val_main_v39, ReadP.val_main_c_9, ReadP.val_main_v40, ReadP.val_main_v41, ReadP.val_main_v42, ReadP.val_main_c_10, ReadP.val_main_v43, ReadP.val_main_v44, ReadP.val_main_c_11, ReadP.val_main_v45, ReadP.val_main_v46, ReadP.val_main_v47, ReadP.val_main_v48, ReadP.val_main_v49, ReadP.val_main_v50, ReadP.val_main_cst_12, ReadP.val_main_v51, ReadP.val_main_v52, ReadP.val_main_v53, ReadP.val_main_v54, ReadP.val_main_v55, ReadP.val_main_v56, ReadP.val_main_v57, ReadP.val_main_call2_cst, ReadP.val_main_call2_v0, ReadP.val_main_call2_cst_0, ReadP.val_main_call2_v1, ReadP.val_main_call2_v2, ReadP.val_main_call2_v3, ReadP.val_main_call2_v4, ReadP.val_main_call2_v5, ReadP.val_main_call2_v6, ReadP.val_main_call2_cst_1, ReadP.val_main_call2_v7, ReadP.val_main_call2_v8, ReadP.val_main_call2_v9, ReadP.val_main_call2_v10, ReadP.val_main_v58, ReadP.val_main_v59, ReadP.val_main_c_13, ReadP.val_main_v60, ReadP.val_main_v61, ReadP.val_main_c_14, ReadP.val_main_v62, ReadP.val_main_v63, ReadP.val_main_v64, ReadP.val_main_c_15, ReadP.val_main_v65, ReadP.val_main_v66, ReadP.val_main_c_16, ReadP.val_main_v67, ReadP.val_main_v68, ReadP.val_main_v69, ReadP.val_main_v70, ReadP.val_main_v71, ReadP.val_main_v72, ReadP.val_main_v73, ReadP.val_main_cst_17, ReadP.val_main_v74, ReadP.val_main_cst_18, ReadP.val_main_v75, ReadP.val_main_v76]

end Cert.ReferenceIdeal.ValueP

end
-- ==== Proof.RefNorm.lean ====
import proofs.«169810_j2911987827023_2_alg».proof.Proof.Spec
import proofs.«169810_j2911987827023_2_alg».proof.Proof.RefRead

noncomputable section

namespace Cert.ReferenceIdeal.RefB

open Cert.ReferenceIdeal Cert.ReferenceIdeal.Gen Cert.ReferenceIdeal.ReadP Idealize.ShloMosaic Idealize.ShloMosaic.ValueIdx

/-- The input arrays' type: a 4096 × 256 array of extended reals. -/
abbrev Arr := (⟨S4096x256, .f32⟩ : BufTy).Contents (Elt Ideal)

/-- The index the first normalisation's row sum reads at position `k'` of row `i`. -/
theorem idx_row0 (i : Fin 4096) (k k' : Fin 256) :
    idx_main_call0_v1 (idx_main_call0_v2 (idx_main_v3 (ix2 i k))) k' = ix2 i k' := by
  funext a; match a with | ⟨0, _⟩ => rfl | ⟨1, _⟩ => rfl

/-- The index the second normalisation's row sum reads at position `k'` of row `i`. -/
theorem idx_row1 (i : Fin 4096) (k k' : Fin 256) :
    idx_main_call1_v1 (idx_main_call1_v2 (idx_main_v8 (ix2 i k))) k' = ix2 i k' := by
  funext a; match a with | ⟨0, _⟩ => rfl | ⟨1, _⟩ => rfl

/-- The first argument divided by its broadcast clamped row norm is the row normalisation: the host sum is
    `0 + Σ`, the zero word reads `0`, and every broadcast reads its operand at the row. -/
theorem v4_apply (x : Arr) (i : Fin 4096) (k : Fin 256) :
    val_main_v4 (F := Ideal) x (ix2 i k) = Cert.Contrast.unit x i k := by
  rw [val_main_v4_apply, val_main_v3_apply, val_main_v2_apply, val_main_v0_apply, val_main_call0_v2_apply,
    val_main_call0_v1_apply, val_main_v1_apply, val_main_cst_apply, val_main_call0_cst_apply]
  simp only [val_main_call0_v0_apply, Ideal.ofBits_def, Ideal.hostDivf_def, Ideal.hostUnary_sqrt_def, Ideal.maximumf_def,
    Ideal.mulf_def, Ideal.ofBits_zero_f32, zero_add, idx_row0]
  rfl

/-- The same for the second argument. -/
theorem v9_apply (y : Arr) (i : Fin 4096) (k : Fin 256) :
    val_main_v9 (F := Ideal) y (ix2 i k) = Cert.Contrast.unit y i k := by
  rw [val_main_v9_apply, val_main_v8_apply, val_main_v7_apply, val_main_v5_apply, val_main_call1_v2_apply,
    val_main_call1_v1_apply, val_main_v6_apply, val_main_cst_0_apply, val_main_call1_cst_apply]
  simp only [val_main_call1_v0_apply, Ideal.ofBits_def, Ideal.hostDivf_def, Ideal.hostUnary_sqrt_def, Ideal.maximumf_def,
    Ideal.mulf_def, Ideal.ofBits_zero_f32, zero_add, idx_row1]
  rfl

end Cert.ReferenceIdeal.RefB

end
-- ==== Proof.RefSims.lean ====
import proofs.«169810_j2911987827023_2_alg».proof.Proof.Spec
import proofs.«169810_j2911987827023_2_alg».proof.Proof.RefRead
import proofs.«169810_j2911987827023_2_alg».proof.Proof.RefNorm

noncomputable section

namespace Cert.ReferenceIdeal.RefB

open Cert.ReferenceIdeal Cert.ReferenceIdeal.Gen Cert.ReferenceIdeal.ReadP Idealize.ShloMosaic Idealize.ShloMosaic.ValueIdx

/-- The left operand's index at contraction position `k`, for each of the three products. -/
theorem lidx11 (i j : Fin 4096) (k : Fin 256) : lidx_main_v11 (ix2 i j) k = ix2 i k := by
  funext a; match a with | ⟨0, _⟩ => rfl | ⟨1, _⟩ => rfl
theorem lidx15 (i j : Fin 4096) (k : Fin 256) : lidx_main_v15 (ix2 i j) k = ix2 i k := by
  funext a; match a with | ⟨0, _⟩ => rfl | ⟨1, _⟩ => rfl
theorem lidx19 (i j : Fin 4096) (k : Fin 256) : lidx_main_v19 (ix2 i j) k = ix2 i k := by
  funext a; match a with | ⟨0, _⟩ => rfl | ⟨1, _⟩ => rfl

/-- The right operand is a transpose: at contraction position `k` it reads row `j`, position `k`. -/
theorem ridx11 (i j : Fin 4096) (k : Fin 256) : idx_main_v10 (ridx_main_v11 (ix2 i j) k) = ix2 j k := by
  funext a; match a with | ⟨0, _⟩ => rfl | ⟨1, _⟩ => rfl
theorem ridx15 (i j : Fin 4096) (k : Fin 256) : idx_main_v14 (ridx_main_v15 (ix2 i j) k) = ix2 j k := by
  funext a; match a with | ⟨0, _⟩ => rfl | ⟨1, _⟩ => rfl
theorem ridx19 (i j : Fin 4096) (k : Fin 256) : idx_main_v18 (ridx_main_v19 (ix2 i j) k) = ix2 j k := by
  funext a; match a with | ⟨0, _⟩ => rfl | ⟨1, _⟩ => rfl

/-- The cross similarities: the contraction of the two normalised arrays, times the word 2. -/
theorem v21_apply (x y : Arr) (i j : Fin 4096) :
    val_main_v21 (F := Ideal) x y (ix2 i j) = Cert.Contrast.sim (Cert.Contrast.unit x) (Cert.Contrast.unit y) i j := by
  rw [val_main_v21_apply, val_main_v19_apply, val_main_v20_apply, val_main_cst_3_apply]
  simp only [val_main_v18_apply, lidx19, ridx19, v4_apply, v9_apply, Ideal.mulf_def, Ideal.ofBits_def]
  rfl

/-- The first array's self-similarities. -/
theorem v13_apply (x : Arr) (i j : Fin 4096) :
    val_main_v13 (F := Ideal) x (ix2 i j) = Cert.Contrast.sim (Cert.Contrast.unit x) (Cert.Contrast.unit x) i j := by
  rw [val_main_v13_apply, val_main_v11_apply, val_main_v12_apply, val_main_cst_1_apply]
  simp only [val_main_v10_apply, lidx11, ridx11, v4_apply, Ideal.mulf_def, Ideal.ofBits_def]
  rfl

/-- The second array's self-similarities. -/
theorem v17_apply (y : Arr) (i j : Fin 4096) :
    val_main_v17 (F := Ideal) y (ix2 i j) = Cert.Contrast.sim (Cert.Contrast.unit y) (Cert.Contrast.unit y) i j := by
  rw [val_main_v17_apply, val_main_v15_apply, val_main_v16_apply, val_main_cst_2_apply]
  simp only [val_main_v14_apply, lidx15, ridx15, v9_apply, Ideal.mulf_def, Ideal.ofBits_def]
  rfl

end Cert.ReferenceIdeal.RefB

end
-- ==== Proof.LibScatterConst.lean ====
/-
  A scatter that overwrites, with one value. `Host.scatter` with the body "return the update" replaces, update index
  by update index, the operand's element at the update's result index by the update's element. When every update
  index has a result index inside the operand (`g` of it) and every update element is the same value `v`, the order
  of the updates does not matter: the result is `v` at every index some update lands on and the operand at every other.
-/
import Idealize.ShloMosaic.PureOps.ShapeOps

namespace Cert.Lib

open Idealize.ShloMosaic

variable {α : Type} {w : Nat} {s si u : Shape}

/-- An update index whose start plus window coordinate is, on every operand axis, the coordinate of `i` lands at `i`. -/
theorem resultIdx?_eq_some (d : ScatterDims s si u) (j : u.Idx) (idx : IVec si w) (i : s.Idx)
    (h : ∀ a, d.start j idx a + (d.window j a : Int) = ((i a).val : Int)) : d.resultIdx? j idx = some i := by
  have hb : ∀ a, 0 ≤ d.start j idx a + (d.window j a : Int) ∧ d.start j idx a + (d.window j a : Int) < s.size a :=
    fun a => by rw [h a]; exact ⟨Int.natCast_nonneg _, by exact_mod_cast (i a).isLt⟩
  unfold ScatterDims.resultIdx?
  rw [dif_pos hb]
  congr 1
  funext a
  apply Fin.ext
  show (d.start j idx a + (d.window j a : Int)).toNat = (i a).val
  rw [h a]; exact Int.toNat_natCast _

/-- The scatter's step at update number `n`, for the overwriting body. -/
abbrev setStep (d : ScatterDims s si u) (idx : IVec si w) (upd : u.Idx → α) (r : s.Idx → α) (n : Fin u.numel) : s.Idx → α :=
  match d.resultIdx? (u.rowMajor.symm n) idx with
  | some i => fun i' => if i' = i then (fun (_ b : α) => b) (r i) (upd (u.rowMajor.symm n)) else r i'
  | none => r

/-- The scatter is the left fold of that step over the update numbers. -/
theorem scatter_eq_foldl (d : ScatterDims s si u) (x : s.Idx → α) (idx : IVec si w) (upd : u.Idx → α) :
    Host.scatter d (fun _ b => b) x idx upd = (List.finRange u.numel).foldl (setStep d idx upd) x := rfl

/-- With every result index inside the operand and every update the value `v`, a step writes `v` at one index. -/
theorem setStep_const (d : ScatterDims s si u) (idx : IVec si w) (upd : u.Idx → α) (g : u.Idx → s.Idx) (v : α)
    (hg : ∀ j, d.resultIdx? j idx = some (g j)) (hv : ∀ j, upd j = v) (r : s.Idx → α) (n : Fin u.numel) (i : s.Idx) :
    setStep d idx upd r n i = if i = g (u.rowMajor.symm n) then v else r i := by
  unfold setStep
  rw [hg (u.rowMajor.symm n), hv]

/-- An index no update of the list lands on keeps its element. -/
theorem foldl_setStep_miss (d : ScatterDims s si u) (idx : IVec si w) (upd : u.Idx → α) (g : u.Idx → s.Idx) (v : α)
    (hg : ∀ j, d.resultIdx? j idx = some (g j)) (hv : ∀ j, upd j = v) (i : s.Idx) :
    ∀ (l : List (Fin u.numel)) (x : s.Idx → α), (∀ n ∈ l, g (u.rowMajor.symm n) ≠ i) →
      l.foldl (setStep d idx upd) x i = x i
  | [], _, _ => rfl
  | n :: l, x, h => by
    rw [List.foldl_cons, foldl_setStep_miss d idx upd g v hg hv i l _ (fun m hm => h m (List.mem_cons_of_mem _ hm)),
      setStep_const d idx upd g v hg hv, if_neg (fun e => h n List.mem_cons_self e.symm)]

/-- An index some update of the list lands on holds `v`. -/
theorem foldl_setStep_hit (d : ScatterDims s si u) (idx : IVec si w) (upd : u.Idx → α) (g : u.Idx → s.Idx) (v : α)
    (hg : ∀ j, d.resultIdx? j idx = some (g j)) (hv : ∀ j, upd j = v) (i : s.Idx) :
    ∀ (l : List (Fin u.numel)) (x : s.Idx → α), (∃ n ∈ l, g (u.rowMajor.symm n) = i) →
      l.foldl (setStep d idx upd) x i = v
  | [], _, h => by obtain ⟨n, hn, _⟩ := h; cases hn
  | n :: l, x, h => by
    rw [List.foldl_cons]
    by_cases hl : ∃ m ∈ l, g (u.rowMajor.symm m) = i
    · exact foldl_setStep_hit d idx upd g v hg hv i l _ hl
    · have hn : g (u.rowMajor.symm n) = i := by
        obtain ⟨m, hm, e⟩ := h
        rcases List.mem_cons.1 hm with rfl | hm'
        · exact e
        · exact absurd ⟨m, hm', e⟩ hl
      rw [foldl_setStep_miss d idx upd g v hg hv i l _ (fun m hm e => hl ⟨m, hm, e⟩),
        setStep_const d idx upd g v hg hv, if_pos hn.symm]

/-- THE OVERWRITING SCATTER OF ONE VALUE, where some update lands: the value. -/
theorem scatter_set_const_hit (d : ScatterDims s si u) (x : s.Idx → α) (idx : IVec si w) (upd : u.Idx → α)
    (g : u.Idx → s.Idx) (v : α) (hg : ∀ j, d.resultIdx? j idx = some (g j)) (hv : ∀ j, upd j = v) (i : s.Idx)
    (h : ∃ j, g j = i) : Host.scatter d (fun _ b => b) x idx upd i = v := by
  rw [scatter_eq_foldl]
  obtain ⟨j, hj⟩ := h
  exact foldl_setStep_hit d idx upd g v hg hv i _ x
    ⟨u.rowMajor j, List.mem_finRange _, by rw [Equiv.symm_apply_apply]; exact hj⟩

/-- THE OVERWRITING SCATTER OF ONE VALUE, where no update lands: the operand. -/
theorem scatter_set_const_miss (d : ScatterDims s si u) (x : s.Idx → α) (idx : IVec si w) (upd : u.Idx → α)
    (g : u.Idx → s.Idx) (v : α) (hg : ∀ j, d.resultIdx? j idx = some (g j)) (hv : ∀ j, upd j = v) (i : s.Idx)
    (h : ∀ j, g j ≠ i) : Host.scatter d (fun _ b => b) x idx upd i = x i := by
  rw [scatter_eq_foldl]
  exact foldl_setStep_miss d idx upd g v hg hv i _ x (fun n _ => h _)

/-- Both cases as one `if`. -/
theorem scatter_set_const (d : ScatterDims s si u) (x : s.Idx → α) (idx : IVec si w) (upd : u.Idx → α)
    (g : u.Idx → s.Idx) (v : α) (hg : ∀ j, d.resultIdx? j idx = some (g j)) (hv : ∀ j, upd j = v) (i : s.Idx)
    [Decidable (∃ j, g j = i)] :
    Host.scatter d (fun _ b => b) x idx upd i = if ∃ j, g j = i then v else x i := by
  split
  · next h => exact scatter_set_const_hit d x idx upd g v hg hv i h
  · next h => exact scatter_set_const_miss d x idx upd g v hg hv i (fun j e => h ⟨j, e⟩)

end Cert.Lib
-- ==== Proof.RefMask.lean ====
import proofs.«169810_j2911987827023_2_alg».proof.Proof.Spec
import proofs.«169810_j2911987827023_2_alg».proof.Proof.RefRead
import proofs.«169810_j2911987827023_2_alg».proof.Proof.RefSims
import proofs.«169810_j2911987827023_2_alg».proof.Proof.LibScatterConst

noncomputable section

namespace Cert.ReferenceIdeal.RefB

open Cert.ReferenceIdeal Cert.ReferenceIdeal.Gen Cert.ReferenceIdeal.ReadP Idealize.ShloMosaic Idealize.ShloMosaic.ValueIdx

variable {F : FTy → Type} [FloatOps F]

/-! ## Words: an index below 4096 -/

/-- A word below 4096 read as a signed integer is itself. -/
theorem toInt_ofNat_small (n : Nat) (h : n < 4096) : (BitVec.ofNat 32 n).toInt = (n : Int) := by
  rw [BitVec.toInt_eq_toNat_cond, BitVec.toNat_ofNat]
  have e : n % 2 ^ 32 = n := Nat.mod_eq_of_lt (by omega)
  rw [e, if_pos (by omega)]

/-- A word below 4096 is not negative. -/
theorem slt_zero_small (n : Nat) (h : n < 4096) : IntOp.cmpi .slt (BitVec.ofNat 32 n) 0#32 = 0#1 := by
  show BitVec.ofBool ((BitVec.ofNat 32 n).slt 0#32) = 0#1
  have : (BitVec.ofNat 32 n).slt 0#32 = false := by
    simp [BitVec.slt, toInt_ofNat_small n h]
  rw [this]; rfl

/-- The wrap of a negative index, `select (n < 0) (n + 4096) n`, leaves an index below 4096 alone. -/
theorem wrap_small (n : Nat) (h : n < 4096) :
    Scalar.select (IntOp.cmpi .slt (BitVec.ofNat 32 n) 0#32) (IntOp.addi (BitVec.ofNat 32 n) 4096#32) (BitVec.ofNat 32 n)
      = BitVec.ofNat 32 n := by
  rw [slt_zero_small n h, select_zero]

/-! ## The two index arrays: entry `(m, c)` is the word `m` -/

theorem v27_at (m : Fin 4096) : val_main_v27 (F := F) (ix1 m) = BitVec.ofNat 32 m.val := by
  rw [val_main_v27_apply, val_main_v24_apply, val_main_v26_apply, val_main_v22_apply, val_main_v23_apply, val_main_c_apply,
    val_main_v25_apply, val_main_c_4_apply]
  exact wrap_small m.val m.isLt
theorem v32_at (m : Fin 4096) : val_main_v32 (F := F) (ix1 m) = BitVec.ofNat 32 m.val := by
  rw [val_main_v32_apply, val_main_v29_apply, val_main_v31_apply, val_main_v22_apply, val_main_v28_apply, val_main_c_5_apply,
    val_main_v30_apply, val_main_c_6_apply]
  exact wrap_small m.val m.isLt
theorem v42_at (m : Fin 4096) : val_main_v42 (F := F) (ix1 m) = BitVec.ofNat 32 m.val := by
  rw [val_main_v42_apply, val_main_v39_apply, val_main_v41_apply, val_main_v22_apply, val_main_v38_apply, val_main_c_8_apply,
    val_main_v40_apply, val_main_c_9_apply]
  exact wrap_small m.val m.isLt
theorem v47_at (m : Fin 4096) : val_main_v47 (F := F) (ix1 m) = BitVec.ofNat 32 m.val := by
  rw [val_main_v47_apply, val_main_v44_apply, val_main_v46_apply, val_main_v22_apply, val_main_v43_apply, val_main_c_10_apply,
    val_main_v45_apply, val_main_c_11_apply]
  exact wrap_small m.val m.isLt

/-- A two-column array made of two one-column arrays that both hold `m` in row `m` holds `m` in row `m`. -/
theorem pair_at (A B : (⟨S4096x1, .i32⟩ : BufTy).Contents (Elt F))
    (hA : ∀ m : Fin 4096, A (ix2 m (0 : Fin 1)) = BitVec.ofNat 32 m.val)
    (hB : ∀ m : Fin 4096, B (ix2 m (0 : Fin 1)) = BitVec.ofNat 32 m.val) (m : Fin 4096) (c : Fin 2) :
    concatenate S4096x2 1 [⟨S4096x1, A⟩, ⟨S4096x1, B⟩] concatenates_S4096x1_S4096x1_S4096x2_d1 (ix2 m c)
      = BitVec.ofNat 32 m.val := by
  match c with
  | ⟨0, _⟩ =>
    refine (concatenate_pair_apply_left _ A B concatenates_S4096x1_S4096x1_S4096x2_d1 _ rfl (ix2 m (0 : Fin 1))
      (fun b => match b with | ⟨0, _⟩ => rfl | ⟨1, _⟩ => rfl)).trans (hA m)
  | ⟨1, _⟩ =>
    refine (concatenate_pair_apply_right _ A B concatenates_S4096x1_S4096x1_S4096x2_d1 _ rfl rfl (ix2 m (0 : Fin 1))
      (fun b hb => match b, hb with | ⟨0, _⟩, _ => rfl | ⟨1, _⟩, hb => absurd rfl hb) rfl).trans (hB m)

theorem v35_at (m : Fin 4096) (c : Fin 2) : val_main_v35 (F := F) (ix2 m c) = BitVec.ofNat 32 m.val := by
  unfold val_main_v35
  refine pair_at _ _ (fun m => ?_) (fun m => ?_) m c
  · rw [val_main_v33_apply]; exact v27_at m
  · rw [val_main_v34_apply]; exact v32_at m

theorem v50_at (m : Fin 4096) (c : Fin 2) : val_main_v50 (F := F) (ix2 m c) = BitVec.ofNat 32 m.val := by
  unfold val_main_v50
  refine pair_at _ _ (fun m => ?_) (fun m => ?_) m c
  · rw [val_main_v48_apply]; exact v42_at m
  · rw [val_main_v49_apply]; exact v47_at m

/-! ## The scatter's dimension numbers at an update index

The record has no window axes: both operand axes are inserted, both are named by the start index map, and the index vector
is axis 1 of the 4096 × 2 index array. Update `n` therefore reads its start `(idx[n, 0], idx[n, 1])` and lands there. -/

/-- A rank-1 index built from `n` reads `n` at its one axis, however that axis is spelt. -/
theorem ix1_any (n : Fin 4096) (b : Fin 1) : (ix1 n b).val = n.val := match b with | ⟨0, _⟩ => rfl

/-- The index-array entry an update reads for a start component lies in the update's own row. -/
theorem siIdx_row (n : Fin 4096) (c : Fin scatter_S4096x4096_S4096x2_S4096_n_01_01_1.scatterDimsToOperandDims.length) :
    ((scatter_S4096x4096_S4096x2_S4096_n_01_01_1.siIdx (ix1 n) c) 0).val = n.val := by
  unfold ScatterDims.siIdx
  rw [dif_neg (by decide)]
  unfold ScatterDims.siCoord
  exact ix1_any n _

/-- With an index array holding `m` throughout row `m`, every start component of update `n` is the word `n`. -/
theorem idx_siIdx (idx : (⟨S4096x2, .i32⟩ : BufTy).Contents (Elt Ideal))
    (hidx : ∀ (m : Fin 4096) (c : Fin 2), idx (ix2 m c) = BitVec.ofNat 32 m.val) (n : Fin 4096)
    (c : Fin scatter_S4096x4096_S4096x2_S4096_n_01_01_1.scatterDimsToOperandDims.length) :
    idx (scatter_S4096x4096_S4096x2_S4096_n_01_01_1.siIdx (ix1 n) c) = BitVec.ofNat 32 n.val := by
  rw [eq_ix2 (scatter_S4096x4096_S4096x2_S4096_n_01_01_1.siIdx (ix1 n) c)]
  exact (hidx _ _).trans (congrArg (BitVec.ofNat 32) (siIdx_row n c))

/-- The start of update `n`'s window on either operand axis is `n`. -/
theorem start_at (idx : (⟨S4096x2, .i32⟩ : BufTy).Contents (Elt Ideal))
    (hidx : ∀ (m : Fin 4096) (c : Fin 2), idx (ix2 m c) = BitVec.ofNat 32 m.val) (n : Fin 4096) (a : Fin S4096x4096.rank) :
    scatter_S4096x4096_S4096x2_S4096_n_01_01_1.start (ix1 n) idx a = (n.val : Int) := by
  have ha : a ∈ scatter_S4096x4096_S4096x2_S4096_n_01_01_1.scatterDimsToOperandDims := by
    match a with
    | ⟨0, _⟩ => exact (show (0 : Fin S4096x4096.rank) ∈ scatter_S4096x4096_S4096x2_S4096_n_01_01_1.scatterDimsToOperandDims by decide)
    | ⟨1, _⟩ => exact (show (1 : Fin S4096x4096.rank) ∈ scatter_S4096x4096_S4096x2_S4096_n_01_01_1.scatterDimsToOperandDims by decide)
  unfold ScatterDims.start
  rw [dif_pos ha, idx_siIdx idx hidx n _, toInt_ofNat_small n.val n.isLt]

/-- There is no window: the window coordinate is 0 on both operand axes. -/
theorem window_at (j : S4096.Idx) (a : Fin S4096x4096.rank) :
    scatter_S4096x4096_S4096x2_S4096_n_01_01_1.window j a = 0 := by
  have ha : a ∉ scatter_S4096x4096_S4096x2_S4096_n_01_01_1.sKept := by
    match a with
    | ⟨0, _⟩ => exact (show (0 : Fin S4096x4096.rank) ∉ scatter_S4096x4096_S4096x2_S4096_n_01_01_1.sKept by decide)
    | ⟨1, _⟩ => exact (show (1 : Fin S4096x4096.rank) ∉ scatter_S4096x4096_S4096x2_S4096_n_01_01_1.sKept by decide)
  unfold ScatterDims.window
  rw [dif_neg ha]

/-- Update `n` lands on the diagonal, at `(n, n)`. -/
theorem resultIdx_at (idx : (⟨S4096x2, .i32⟩ : BufTy).Contents (Elt Ideal))
    (hidx : ∀ (m : Fin 4096) (c : Fin 2), idx (ix2 m c) = BitVec.ofNat 32 m.val) (n : Fin 4096) :
    scatter_S4096x4096_S4096x2_S4096_n_01_01_1.resultIdx? (ix1 n) idx = some (ix2 n n) :=
  Cert.Lib.resultIdx?_eq_some _ (ix1 n) idx (ix2 n n) (fun a => by
    rw [start_at idx hidx n a, window_at]
    match a with
    | ⟨0, _⟩ => exact Int.add_zero _
    | ⟨1, _⟩ => exact Int.add_zero _)

/-- Where an update index lands. -/
abbrev diagIdx (jj : S4096.Idx) : S4096x4096.Idx :=
  ix2 (⟨(jj 0).val, (jj 0).isLt⟩ : Fin 4096) (⟨(jj 0).val, (jj 0).isLt⟩ : Fin 4096)

/-- THE SCATTER READ AT AN INDEX: overwriting the diagonal with −∞ leaves −∞ on the diagonal and the operand off it. -/
theorem scatter_diag (X : (⟨S4096x4096, .f32⟩ : BufTy).Contents (Elt Ideal)) (idx : (⟨S4096x2, .i32⟩ : BufTy).Contents (Elt Ideal))
    (upd : (⟨S4096, .f32⟩ : BufTy).Contents (Elt Ideal))
    (hidx : ∀ (m : Fin 4096) (c : Fin 2), idx (ix2 m c) = BitVec.ofNat 32 m.val)
    (hupd : ∀ jj, upd jj = (⊥ : EReal)) (i j : Fin 4096) :
    Host.scatter scatter_S4096x4096_S4096x2_S4096_n_01_01_1 (fun _ b => b) X idx upd (ix2 i j)
      = if i = j then (⊥ : EReal) else X (ix2 i j) := by
  have hg : ∀ jj : S4096.Idx, scatter_S4096x4096_S4096x2_S4096_n_01_01_1.resultIdx? jj idx = some (diagIdx jj) := fun jj => by
    obtain ⟨n, rfl⟩ : ∃ n : Fin 4096, jj = ix1 n := ⟨jj 0, eq_ix1 jj⟩
    exact resultIdx_at idx hidx n
  split
  · next h =>
    subst h
    exact Cert.Lib.scatter_set_const_hit _ X idx upd diagIdx ⊥ hg hupd _ ⟨ix1 i, rfl⟩
  · next h =>
    refine Cert.Lib.scatter_set_const_miss _ X idx upd diagIdx ⊥ hg hupd _ (fun jj e => h ?_)
    have h0 : (⟨(jj 0).val, (jj 0).isLt⟩ : Fin 4096) = i := congrFun e 0
    have h1 : (⟨(jj 0).val, (jj 0).isLt⟩ : Fin 4096) = j := congrFun e 1
    exact h0.symm.trans h1

/-- The word 0xFF800000 is −∞. -/
theorem ofBits_neg_inf : Ideal.ofBits .f32 0xFF800000#32 = (⊥ : EReal) := by simp [Ideal.ofBits, Ideal.ieee]

theorem v36_bot (jj : S4096.Idx) : val_main_v36 (F := Ideal) jj = (⊥ : EReal) := by
  rw [val_main_v36_apply, val_main_cst_7_apply]; exact ofBits_neg_inf
theorem v51_bot (jj : S4096.Idx) : val_main_v51 (F := Ideal) jj = (⊥ : EReal) := by
  rw [val_main_v51_apply, val_main_cst_12_apply]; exact ofBits_neg_inf

/-- The first array's self-similarities with the diagonal overwritten by −∞. -/
theorem v37_apply (x : Arr) (i j : Fin 4096) :
    val_main_v37 (F := Ideal) x (ix2 i j) = Cert.Contrast.msk (Cert.Contrast.unit x) i j := by
  unfold val_main_v37
  rw [scatter_diag _ _ _ v35_at v36_bot i j, v13_apply]
  rfl

/-- The second array's self-similarities with the diagonal overwritten by −∞. -/
theorem v52_apply (y : Arr) (i j : Fin 4096) :
    val_main_v52 (F := Ideal) y (ix2 i j) = Cert.Contrast.msk (Cert.Contrast.unit y) i j := by
  unfold val_main_v52
  rw [scatter_diag _ _ _ v50_at v51_bot i j, v17_apply]
  rfl

end Cert.ReferenceIdeal.RefB

end
-- ==== Proof.RefScores.lean ====
/-
  The reference's 8192 × 8192 score matrix, read at an index.

  The matrix is assembled from three 4096 × 4096 blocks by two concatenations along the columns and one along the
  rows, the lower right block being the transpose of the upper left one. Given what the three blocks are at every
  index, the assembled matrix at (I, J) is the block picked by the two comparisons I < 4096, J < 4096, read at the
  low twelve bits of I and J.
-/
import proofs.«169810_j2911987827023_2_alg».proof.Proof.Spec
import proofs.«169810_j2911987827023_2_alg».proof.Proof.RefRead

noncomputable section

namespace Cert.ReferenceIdeal.RefScores

open Cert.ReferenceIdeal Cert.ReferenceIdeal.Gen Idealize.ShloMosaic Idealize.ShloMosaic.ValueIdx Cert.Contrast

/-- A concatenation of two 4096 × 4096 arrays along the columns, read left of column 4096: the first array. -/
theorem cat1_lo (u v : (⟨S4096x4096, .f32⟩ : BufTy).Contents (Elt Ideal)) (i : Fin 4096) (J : Fin 8192) (hJ : J.val < 4096) :
    concatenate S4096x8192 1 [⟨S4096x4096, u⟩, ⟨S4096x4096, v⟩] concatenates_S4096x4096_S4096x4096_S4096x8192_d1 (ix2 i J)
      = u (ix2 i (lo J)) :=
  concatenate_pair_apply_left 1 u v _ (ix2 i J) rfl (ix2 i (lo J)) (fun b => match b with
    | ⟨0, _⟩ => rfl
    | ⟨1, _⟩ => Nat.mod_eq_of_lt hJ)

/-- … and from column 4096 on: the second array, 4096 columns to the left. -/
theorem cat1_hi (u v : (⟨S4096x4096, .f32⟩ : BufTy).Contents (Elt Ideal)) (i : Fin 4096) (J : Fin 8192) (hJ : ¬ J.val < 4096) :
    concatenate S4096x8192 1 [⟨S4096x4096, u⟩, ⟨S4096x4096, v⟩] concatenates_S4096x4096_S4096x4096_S4096x8192_d1 (ix2 i J)
      = v (ix2 i (lo J)) :=
  concatenate_pair_apply_right 1 u v _ (ix2 i J) rfl rfl (ix2 i (lo J)) (fun b hb => match b, hb with
    | ⟨0, _⟩, _ => rfl
    | ⟨1, _⟩, hb => absurd rfl hb)
    (by show J.val % 4096 + 4096 = J.val; have := J.isLt; omega)

/-- A concatenation of two 4096 × 8192 arrays along the rows, read above row 4096: the first array. -/
theorem cat0_lo (u v : (⟨S4096x8192, .f32⟩ : BufTy).Contents (Elt Ideal)) (I J : Fin 8192) (hI : I.val < 4096) :
    concatenate S8192x8192 0 [⟨S4096x8192, u⟩, ⟨S4096x8192, v⟩] concatenates_S4096x8192_S4096x8192_S8192x8192_d0 (ix2 I J)
      = u (ix2 (lo I) J) :=
  concatenate_pair_apply_left 0 u v _ (ix2 I J) rfl (ix2 (lo I) J) (fun b => match b with
    | ⟨0, _⟩ => Nat.mod_eq_of_lt hI
    | ⟨1, _⟩ => rfl)

/-- … and from row 4096 on: the second array, 4096 rows up. -/
theorem cat0_hi (u v : (⟨S4096x8192, .f32⟩ : BufTy).Contents (Elt Ideal)) (I J : Fin 8192) (hI : ¬ I.val < 4096) :
    concatenate S8192x8192 0 [⟨S4096x8192, u⟩, ⟨S4096x8192, v⟩] concatenates_S4096x8192_S4096x8192_S8192x8192_d0 (ix2 I J)
      = v (ix2 (lo I) J) :=
  concatenate_pair_apply_right 0 u v _ (ix2 I J) rfl rfl (ix2 (lo I) J) (fun b hb => match b, hb with
    | ⟨0, _⟩, hb => absurd rfl hb
    | ⟨1, _⟩, _ => rfl)
    (by show I.val % 4096 + 4096 = I.val; have := I.isLt; omega)

section
variable (x y : (⟨S4096x256, .f32⟩ : BufTy).Contents (Elt Ideal)) (a b : Rows)
  (h21 : ∀ i j : Fin 4096, ReadP.val_main_v21 (F := Ideal) x y (ix2 i j) = sim a b i j)
  (h37 : ∀ i j : Fin 4096, ReadP.val_main_v37 (F := Ideal) x (ix2 i j) = msk a i j)
  (h52 : ∀ i j : Fin 4096, ReadP.val_main_v52 (F := Ideal) y (ix2 i j) = msk b i j)
include h21 h37 h52

/-- The upper half: the cross similarities beside the masked self-similarities of the first family. -/
theorem v53_apply (i : Fin 4096) (J : Fin 8192) :
    ReadP.val_main_v53 (F := Ideal) x y (ix2 i J) = if J.val < 4096 then sim a b i (lo J) else msk a i (lo J) := by
  unfold ReadP.val_main_v53
  by_cases hJ : J.val < 4096
  · rw [if_pos hJ, cat1_lo _ _ i J hJ]; exact h21 i (lo J)
  · rw [if_neg hJ, cat1_hi _ _ i J hJ]; exact h37 i (lo J)

/-- The transposed cross similarities. -/
theorem v54_apply (i j : Fin 4096) : ReadP.val_main_v54 (F := Ideal) x y (ix2 i j) = sim a b j i := by
  rw [ReadP.val_main_v54_apply, ← h21 j i]
  exact congrArg _ (funext fun c => match c with | ⟨0, _⟩ => rfl | ⟨1, _⟩ => rfl)

/-- The lower half: the masked self-similarities of the second family beside the transposed cross similarities. -/
theorem v55_apply (i : Fin 4096) (J : Fin 8192) :
    ReadP.val_main_v55 (F := Ideal) x y (ix2 i J) = if J.val < 4096 then msk b i (lo J) else sim a b (lo J) i := by
  unfold ReadP.val_main_v55
  by_cases hJ : J.val < 4096
  · rw [if_pos hJ, cat1_lo _ _ i J hJ]; exact h52 i (lo J)
  · rw [if_neg hJ, cat1_hi _ _ i J hJ]; exact v54_apply x y a b h21 h37 h52 i (lo J)

/-- The assembled matrix is the specification's score matrix. -/
theorem v56_apply (I J : Fin 8192) : ReadP.val_main_v56 (F := Ideal) x y (ix2 I J) = scores a b I J := by
  unfold ReadP.val_main_v56 scores
  by_cases hI : I.val < 4096
  · rw [if_pos hI, cat0_lo _ _ I J hI]; exact v53_apply x y a b h21 h37 h52 (lo I) J
  · rw [if_neg hI, cat0_hi _ _ I J hI]; exact v55_apply x y a b h21 h37 h52 (lo I) J

end

end Cert.ReferenceIdeal.RefScores

end
-- ==== Proof.RefSoftmax.lean ====
/-
  The reference's log-softmax of a matrix whose entries are known, read at an index.

  For a matrix S of 8192 rows the reference computes, row by row, the maximum m of the row (from −∞, and once more
  against −∞), the shifted entries S − m, their exponentials, the sum of those from zero, its logarithm, and the
  shifted entries less that logarithm. This module reads each of those arrays at an index, for any S.
-/
import proofs.«169810_j2911987827023_2_alg».proof.Proof.Spec
import proofs.«169810_j2911987827023_2_alg».proof.Proof.RefRead

noncomputable section

namespace Cert.ReferenceIdeal.RefSoftmax

open Cert.ReferenceIdeal Cert.ReferenceIdeal.Gen Idealize.ShloMosaic Idealize.ShloMosaic.ValueIdx Cert.Contrast

/-- The float word of −∞ is the bottom of the extended reals. -/
theorem ofBits_ninf : Ideal.ofBits .f32 0xFF800000#32 = ⊥ := by simp [Ideal.ofBits, Ideal.ieee]

section
variable (x y : (⟨S4096x256, .f32⟩ : BufTy).Contents (Elt Ideal)) (S : Fin 8192 → Fin 8192 → EReal)
  (hS : ∀ I J : Fin 8192, ReadP.val_main_v56 (F := Ideal) x y (ix2 I J) = S I J)
include hS

/-- The row maximum: the fold of `max` from −∞ over the row. -/
theorem v0_apply (I : Fin 8192) : ReadP.val_main_call2_v0 (F := Ideal) x y (ix1 I) = rowmax (S I) := by
  unfold ReadP.val_main_call2_v0
  refine (Host.reduce_eq_fold_single (FloatOps.maximumf (F := Ideal) (φ := .f32)) (ReadP.val_main_v56 (F := Ideal) x y)
    (ReadP.val_main_call2_cst (F := Ideal)) reducesTo_S8192x8192_S8192_d1 (by decide : S8192x8192.Reduces [1] S8192) h_S_ (ix1 I)).trans ?_
  have e1 : (ReadP.val_main_call2_cst (F := Ideal)) (Shape.Idx.first h_S_) = ⊥ := ofBits_ninf
  rw [e1]
  unfold rowmax
  refine Finset.fold_congr (fun k _ => ?_)
  refine Eq.trans (congrArg (ReadP.val_main_v56 (F := Ideal) x y) ?_) (hS I k)
  exact funext fun c => Fin.ext (by match c with | ⟨0, _⟩ => rfl | ⟨1, _⟩ => rfl)

/-- The shift of row `I`: its maximum once more against −∞. -/
theorem v2_apply (I : Fin 8192) : ReadP.val_main_call2_v2 (F := Ideal) x y (ix1 I) = max ⊥ (rowmax (S I)) := by
  rw [ReadP.val_main_call2_v2_apply, v0_apply x y S hS I, ReadP.val_main_call2_v1_apply]
  have e1 : (ReadP.val_main_call2_cst_0 (F := Ideal)) (ReadP.idx_main_call2_v1 (ix1 I)) = ⊥ := ofBits_ninf
  rw [e1]; rfl

/-- The shift broadcast along the row. -/
theorem v4_apply (I J : Fin 8192) : ReadP.val_main_call2_v4 (F := Ideal) x y (ix2 I J) = max ⊥ (rowmax (S I)) := by
  refine (ReadP.val_main_call2_v4_apply x y _).trans ((ReadP.val_main_call2_v3_apply x y _).trans ?_)
  refine Eq.trans (congrArg (ReadP.val_main_call2_v2 (F := Ideal) x y) ?_) (v2_apply x y S hS I)
  exact funext fun c => match c with | ⟨0, _⟩ => rfl

/-- The shifted entries. -/
theorem v5_apply (I J : Fin 8192) :
    ReadP.val_main_call2_v5 (F := Ideal) x y (ix2 I J) = S I J - max ⊥ (rowmax (S I)) := by
  rw [ReadP.val_main_call2_v5_apply, hS I J, v4_apply x y S hS I J]; rfl

/-- Their exponentials. -/
theorem v6_apply (I J : Fin 8192) :
    ReadP.val_main_call2_v6 (F := Ideal) x y (ix2 I J) = Ideal.exp (S I J - max ⊥ (rowmax (S I))) := by
  rw [ReadP.val_main_call2_v6_apply, v5_apply x y S hS I J]; rfl

/-- The sum of the exponentials over the row, from zero. -/
theorem v7_apply (I : Fin 8192) :
    ReadP.val_main_call2_v7 (F := Ideal) x y (ix1 I) = 0 + ∑ J : Fin 8192, Ideal.exp (S I J - max ⊥ (rowmax (S I))) := by
  rw [ReadP.val_main_call2_v7_apply]
  have e0 : (ReadP.val_main_call2_cst_1 (F := Ideal)) (Shape.Idx.first h_S_) = 0 := Ideal.ofBits_zero_f32
  rw [e0]
  refine congrArg (0 + ·) (Finset.sum_congr rfl fun k _ => ?_)
  refine Eq.trans (congrArg (ReadP.val_main_call2_v6 (F := Ideal) x y) ?_) (v6_apply x y S hS I k)
  exact funext fun c => match c with | ⟨0, _⟩ => rfl | ⟨1, _⟩ => rfl

/-- Its logarithm, broadcast along the row. -/
theorem v10_apply (I J : Fin 8192) :
    ReadP.val_main_call2_v10 (F := Ideal) x y (ix2 I J)
      = Ideal.log (0 + ∑ J : Fin 8192, Ideal.exp (S I J - max ⊥ (rowmax (S I)))) := by
  refine (ReadP.val_main_call2_v10_apply x y _).trans ((ReadP.val_main_call2_v9_apply x y _).trans ?_)
  rw [ReadP.val_main_call2_v8_apply]
  refine Eq.trans (congrArg (fun z => FloatOps.hostUnary (F := Ideal) (φ := .f32) .log (ReadP.val_main_call2_v7 (F := Ideal) x y z)) ?_)
    (congrArg Ideal.log (v7_apply x y S hS I))
  exact funext fun c => match c with | ⟨0, _⟩ => rfl

/-- The log-softmax: the shifted entry less the logarithm of the row's sum of exponentials. -/
theorem v58_apply (I J : Fin 8192) :
    ReadP.val_main_v58 (F := Ideal) x y (ix2 I J)
      = (S I J - max ⊥ (rowmax (S I))) - Ideal.log (0 + ∑ J : Fin 8192, Ideal.exp (S I J - max ⊥ (rowmax (S I)))) := by
  rw [ReadP.val_main_v58_apply, v5_apply x y S hS I J, v10_apply x y S hS I J]; rfl

end

end Cert.ReferenceIdeal.RefSoftmax

end
-- ==== Proof.RefGather.lean ====
/-
  The reference's gather of the diagonal, read at an index.

  The start indices are the pairs (I, I): each column of the index array is the row number I, passed through
  "if negative, add 8192", which leaves a number below 8192 as it is. A gather clamps each start into the operand;
  a number below 8192 is already inside. So the gathered vector at I is the operand at (I, I).
-/
import proofs.«169810_j2911987827023_2_alg».proof.Proof.RefRead
import Idealize.ShloMosaic.Lib.DynamicIndex

noncomputable section

namespace Cert.ReferenceIdeal.RefGather

open Cert.ReferenceIdeal Cert.ReferenceIdeal.Gen Idealize.ShloMosaic Idealize.ShloMosaic.ValueIdx

/-- A number below 2³¹, as a 32-bit word read signed, is not below zero. -/
theorem cmpi_slt_zero (n : Nat) (h : n < 2 ^ 31) : IntOp.cmpi .slt (BitVec.ofNat 32 n) 0#32 = 0#1 := by
  have hlt : (BitVec.ofNat 32 n).slt 0#32 = false := by
    simp only [BitVec.slt, BitVec.toInt_zero, decide_eq_false_iff_not, Int.not_lt]
    rw [toInt_ofNat_of_lt h]; omega
  show BitVec.ofBool ((BitVec.ofNat 32 n).slt 0#32) = 0#1
  rw [hlt]; rfl

/-- The first column's entries: the row number. -/
theorem v64_apply (I : Fin 8192) : ReadP.val_main_v64 (F := Ideal) (ix1 I) = BitVec.ofNat 32 I.val := by
  rw [ReadP.val_main_v64_apply, ReadP.val_main_v61_apply, ReadP.val_main_v60_apply]
  show Scalar.select (IntOp.cmpi .slt (BitVec.ofNat 32 I.val) 0#32) _ (BitVec.ofNat 32 I.val) = _
  rw [cmpi_slt_zero I.val (by have := I.isLt; omega)]; exact select_zero _ _

/-- The second column's entries: the row number. -/
theorem v69_apply (I : Fin 8192) : ReadP.val_main_v69 (F := Ideal) (ix1 I) = BitVec.ofNat 32 I.val := by
  rw [ReadP.val_main_v69_apply, ReadP.val_main_v66_apply, ReadP.val_main_v65_apply]
  show Scalar.select (IntOp.cmpi .slt (BitVec.ofNat 32 I.val) 0#32) _ (BitVec.ofNat 32 I.val) = _
  rw [cmpi_slt_zero I.val (by have := I.isLt; omega)]; exact select_zero _ _

/-- The index array at (I, c), either column: the row number. -/
theorem v72_apply (I : Fin 8192) (c : Fin 2) : ReadP.val_main_v72 (F := Ideal) (ix2 I c) = BitVec.ofNat 32 I.val := by
  unfold ReadP.val_main_v72
  match c with
  | ⟨0, _⟩ =>
    refine (concatenate_pair_apply_left (s₁ := S8192x1) (s₂ := S8192x1) 1 _ _ _ (ix2 I (⟨0, by decide⟩ : Fin 2)) rfl (ix2 I (0 : Fin 1)) (fun b => match b with
      | ⟨0, _⟩ => rfl
      | ⟨1, _⟩ => rfl)).trans ?_
    refine (ReadP.val_main_v70_apply _).trans (Eq.trans (congrArg (ReadP.val_main_v64 (F := Ideal)) ?_) (v64_apply I))
    exact funext fun a => match a with | ⟨0, _⟩ => rfl
  | ⟨1, _⟩ =>
    refine (concatenate_pair_apply_right (s₁ := S8192x1) (s₂ := S8192x1) 1 _ _ _ (ix2 I (⟨1, by decide⟩ : Fin 2)) rfl rfl (ix2 I (0 : Fin 1)) (fun b hb => match b, hb with
      | ⟨0, _⟩, _ => rfl
      | ⟨1, _⟩, hb => absurd rfl hb) rfl).trans ?_
    refine (ReadP.val_main_v71_apply _).trans (Eq.trans (congrArg (ReadP.val_main_v69 (F := Ideal)) ?_) (v69_apply I))
    exact funext fun a => match a with | ⟨0, _⟩ => rfl

/-- The operand index the gather reads for result index `I`: the diagonal index (I, I). -/
theorem operandIdx_diag (I : Fin 8192) :
    gather_S8192x8192_S8192x2_S8192_n_01_n_n_01_1_11.operandIdx (ix1 I) (ReadP.val_main_v72 (F := Ideal)) = ix2 I I := by
  funext a
  refine Fin.ext ?_
  show gather_S8192x8192_S8192x2_S8192_n_01_n_n_01_1_11.start (ix1 I) (ReadP.val_main_v72 (F := Ideal)) a
      + gather_S8192x8192_S8192x2_S8192_n_01_n_n_01_1_11.batchCoord (ix1 I) a
      + gather_S8192x8192_S8192x2_S8192_n_01_n_n_01_1_11.offCoord (ix1 I) a = (ix2 I I a).val
  have hmem : a ∈ gather_S8192x8192_S8192x2_S8192_n_01_n_n_01_1_11.collapsedSliceDims := by
    match a with
    | ⟨0, _⟩ => exact List.mem_cons_self
    | ⟨1, _⟩ => exact List.mem_cons_of_mem _ List.mem_cons_self
  rw [GatherDims.batchCoord_eq_zero _ _ _ List.not_mem_nil,
    GatherDims.offCoord_eq_zero _ _ _ (fun h => ((GatherDims.mem_sKept _ _).mp h).1 hmem)]
  simp only [Nat.add_zero]
  unfold GatherDims.start
  rw [dif_pos (show a ∈ gather_S8192x8192_S8192x2_S8192_n_01_n_n_01_1_11.startIndexMap from hmem)]
  have hsi : gather_S8192x8192_S8192x2_S8192_n_01_n_n_01_1_11.siIdx (ix1 I)
      ⟨List.idxOf a gather_S8192x8192_S8192x2_S8192_n_01_n_n_01_1_11.startIndexMap, List.idxOf_lt_length_iff.2 hmem⟩
      = ix2 I (⟨a.val, a.isLt⟩ : Fin 2) := by
    funext b; refine Fin.ext ?_
    match a, b with
    | ⟨0, _⟩, ⟨0, _⟩ => rfl
    | ⟨0, _⟩, ⟨1, _⟩ => rfl
    | ⟨1, _⟩, ⟨0, _⟩ => rfl
    | ⟨1, _⟩, ⟨1, _⟩ => rfl
  rw [hsi, v72_apply I, toInt_ofNat_of_lt (by have := I.isLt; omega)]
  have hI := I.isLt
  match a with
  | ⟨0, _⟩ => show min ((I.val : Int)).toNat (8192 - 1) = I.val; omega
  | ⟨1, _⟩ => show min ((I.val : Int)).toNat (8192 - 1) = I.val; omega

/-- The gathered vector at `I` is the operand at (I, I). -/
theorem v73_apply (x y : (⟨S4096x256, .f32⟩ : BufTy).Contents (Elt Ideal)) (I : Fin 8192) :
    ReadP.val_main_v73 (F := Ideal) x y (ix1 I) = ReadP.val_main_v58 (F := Ideal) x y (ix2 I I) := by
  unfold ReadP.val_main_v73
  generalize ReadP.val_main_v58 (F := Ideal) x y = z
  show z (gather_S8192x8192_S8192x2_S8192_n_01_n_n_01_1_11.operandIdx (ix1 I) (ReadP.val_main_v72 (F := Ideal))) = z (ix2 I I)
  rw [operandIdx_diag I]

end Cert.ReferenceIdeal.RefGather

end
-- ==== Proof.RefLoss.lean ====
/-
  The reference from its score matrix to the loss.

  Given what the three similarity blocks are, the reference's result is the specification's whole-matrix loss:
  the assembled matrix is the score matrix, its log-softmax read on the diagonal is each row's term, and the loss
  is minus the sum of those terms from zero, over 8192.
-/
import proofs.«169810_j2911987827023_2_alg».proof.Proof.Spec
import proofs.«169810_j2911987827023_2_alg».proof.Proof.RefRead
import proofs.«169810_j2911987827023_2_alg».proof.Proof.RefScores
import proofs.«169810_j2911987827023_2_alg».proof.Proof.RefSoftmax
import proofs.«169810_j2911987827023_2_alg».proof.Proof.RefGather

noncomputable section

namespace Cert.ReferenceIdeal.RefLoss

open Cert.ReferenceIdeal Cert.ReferenceIdeal.Gen Idealize.ShloMosaic Idealize.ShloMosaic.ValueIdx Cert.Contrast

/-- A vector's indices are their coordinates. -/
def idxEquiv1 : Fin 8192 ≃ S8192.Idx where
  toFun := ix1
  invFun := fun j => j 0
  left_inv := fun _ => rfl
  right_inv := fun j => (eq_ix1 j).symm

/-- The gathered diagonal of the log-softmax: each row's term of the whole-matrix loss. -/
theorem v73_value (x y : (⟨S4096x256, .f32⟩ : BufTy).Contents (Elt Ideal)) (a b : Rows)
    (h21 : ∀ i j : Fin 4096, ReadP.val_main_v21 (F := Ideal) x y (ix2 i j) = sim a b i j)
    (h37 : ∀ i j : Fin 4096, ReadP.val_main_v37 (F := Ideal) x (ix2 i j) = msk a i j)
    (h52 : ∀ i j : Fin 4096, ReadP.val_main_v52 (F := Ideal) y (ix2 i j) = msk b i j) (I : Fin 8192) :
    ReadP.val_main_v73 (F := Ideal) x y (ix1 I) = rowR a b I := by
  rw [RefGather.v73_apply x y I,
    RefSoftmax.v58_apply x y (scores a b) (RefScores.v56_apply x y a b h21 h37 h52) I I]
  rfl

/-- The reference's result is the whole-matrix loss. -/
theorem loss_value (x y : (⟨S4096x256, .f32⟩ : BufTy).Contents (Elt Ideal)) (a b : Rows)
    (h21 : ∀ i j : Fin 4096, ReadP.val_main_v21 (F := Ideal) x y (ix2 i j) = sim a b i j)
    (h37 : ∀ i j : Fin 4096, ReadP.val_main_v37 (F := Ideal) x (ix2 i j) = msk a i j)
    (h52 : ∀ i j : Fin 4096, ReadP.val_main_v52 (F := Ideal) y (ix2 i j) = msk b i j) :
    ReadP.val_main_v76 (F := Ideal) x y = fun _ => lossR a b := by
  funext i
  rw [ReadP.val_main_v76_apply, ReadP.val_main_v75_apply, ReadP.val_main_v74_apply]
  have e0 : (ReadP.val_main_cst_17 (F := Ideal)) (Shape.Idx.first h_S_) = 0 := Ideal.ofBits_zero_f32
  have hsum : ∑ j : S8192.Idx, ReadP.val_main_v73 (F := Ideal) x y j = ∑ I : Fin 8192, rowR a b I := by
    rw [← Equiv.sum_comp idxEquiv1]
    exact Finset.sum_congr rfl fun I _ => v73_value x y a b h21 h37 h52 I
  rw [hsum, e0]
  rfl

end Cert.ReferenceIdeal.RefLoss

end
-- ==== Proof.LibFinite.lean ====
/-
  GENERAL LEMMAS: a printed "is finite" test read back over the extended reals. At the ideal instance a float is an
  extended real, `|x|` is `max x (-x)`, a comparison is the linear order's, and the word 0x7F800000 denotes `+∞`. So the
  one-bit word of `|x| < +∞` being 1 says that `x` is a real number. Nothing here mentions a program.
-/
import Idealize.ShloMosaic.PureOps.Ideal

noncomputable section

namespace Cert.Lib.Finite

open Idealize.ShloMosaic

/-- The scalar shape has one index. -/
instance : Subsingleton (⟨0, ![]⟩ : Shape).Idx := ⟨fun a b => funext fun d => d.elim0⟩

/-- The word 0x7F800000 denotes `+∞`. -/
theorem ofBits_inf : Ideal.ofBits .f32 0x7F800000#32 = (⊤ : EReal) := by
  simp [Ideal.ofBits, Ideal.ieee]

/-- An extended real whose absolute value `max x (-x)` is below `+∞` is a real: `+∞` is its own absolute value, and
    `-∞`'s is `+∞` too. -/
theorem real_of_abs_lt_top (x : EReal) (h : max x (-x) < ⊤) : ∃ r : ℝ, x = (r : EReal) := by
  induction x using EReal.rec with
  | bot => simp at h
  | coe r => exact ⟨r, rfl⟩
  | top => simp at h

/-- The comparison `|x| < +∞` read back from its one-bit word: if it is 1, `x` is a real. -/
theorem real_of_cmp (x : EReal)
    (h : Ideal.cmp .olt (max x (-x)) (Ideal.ofBits .f32 0x7F800000#32) = 1#1) : ∃ r : ℝ, x = (r : EReal) := by
  refine real_of_abs_lt_top x ?_
  by_contra hn
  rw [ofBits_inf] at h
  simp [Ideal.cmp, hn] at h

end Cert.Lib.Finite

end
-- ==== Proof.Finite.lean ====
/-
  From the precondition to "every input entry is a real number". The precondition is the printed predicate
  `all (|x| < +∞) ∧ all (|y| < +∞)` evaluated to the one-bit word 1. Its result word at its one index is the `and` of two
  reductions by `and`; a reduction by `and` that is 1 met only 1s; and an entry's bit is the comparison of its absolute
  value with `+∞`, which being 1 says the entry is a real.
-/
import proofs.«169810_j2911987827023_2_alg».proof.Pre_finite_inputs
import proofs.«169810_j2911987827023_2_alg».proof.Proof.LibFinite
import Idealize.ShloMosaic.Lib.ReduceAll
import Idealize.ShloMosaic.Lib.ValueIdx

noncomputable section

namespace Cert.Contrast.Finite

open Idealize.ShloMosaic Idealize.ShloMosaic.ValueIdx Cert.Lib.Finite

/-- FINITENESS: if the printed precondition holds of `x` and `y`, every entry of each is a real number. -/
theorem finite_of_pre [Cert.Pre_finite_inputs.Facts]
    (x y : FVec Ideal Cert.Pre_finite_inputs.S4096x256 .f32)
    (h : Cert.Pre_finite_inputs.fn (F := Ideal) x y = fun _ => 1#1) :
    (∀ i, ∃ r : ℝ, x i = (r : EReal)) ∧ (∀ i, ∃ r : ℝ, y i = (r : EReal)) := by
  have h0 := congrFun h ix0
  dsimp only [Cert.Pre_finite_inputs.fn] at h0
  obtain ⟨hx, hy⟩ := IntOp.andi_eq_one.1 h0
  refine ⟨fun i => ?_, fun i => ?_⟩
  · exact real_of_cmp (x i) (Host.reduce_andi_all _ _ _ _ ix0 hx i)
  · exact real_of_cmp (y i) (Host.reduce_andi_all _ _ _ _ ix0 hy i)

end Cert.Contrast.Finite

end
-- ==== Proof.LibSumChunks.lean ====
/-
  Two facts about finite sums in a commutative additive monoid — no cancellation, no order, no finiteness of the
  values is used, so they hold of the extended reals with both infinities:

  * `sum_chunks`: a sum over `a * b` consecutive indices is the sum over its `a` consecutive chunks of `b` indices of
    each chunk's own sum (index `j + b * c` is entry `j` of chunk `c`);
  * `fold_eq_sum`: a left-to-right accumulation `z, z + g 0, (z + g 0) + g 1, …` stands, after `n` steps, at `z` plus
    the sum of the first `n` terms.

  Together: an accumulator started at `z` and advanced chunk by chunk by the chunk's sum ends at `z` plus the sum
  over all indices.
-/
import Mathlib.Algebra.BigOperators.Fin
import Mathlib.Logic.Equiv.Fin.Basic

open scoped BigOperators

namespace Cert.Lib.SumChunks

/-- Entry `j` of chunk `c` (of `a` chunks of `b`) is a position below `a * b`. -/
theorem chunk_lt {a b : ℕ} (c : Fin a) (j : Fin b) : j.val + b * c.val < a * b := by
  have hc : c.val + 1 ≤ a := c.isLt
  calc j.val + b * c.val < b + b * c.val := Nat.add_lt_add_right j.isLt _
    _ = b * (c.val + 1) := by rw [Nat.mul_succ, Nat.add_comm]
    _ ≤ b * a := Nat.mul_le_mul_left _ hc
    _ = a * b := Nat.mul_comm _ _

/-- A sum over `n = a * b` consecutive indices, chunk by chunk: the `a` chunks' sums, summed. -/
theorem sum_chunks {M : Type*} [AddCommMonoid M] {n : ℕ} (a b : ℕ) (h : a * b = n) (f : Fin n → M) :
    ∑ k : Fin n, f k = ∑ c : Fin a, ∑ j : Fin b, f ⟨j.val + b * c.val, h ▸ chunk_lt c j⟩ := by
  subst h
  rw [← Equiv.sum_comp finProdFinEquiv f, Fintype.sum_prod_type]
  rfl

/-- A left-to-right accumulation from `z` by the terms `g 0, g 1, …` stands after `n ≤ N` steps at `z` plus the sum
    of the first `n` terms (the step equation is only asked of the first `N` steps). -/
theorem fold_eq_sum {M : Type*} [AddCommMonoid M] (z : M) (g : ℕ → M) (s : ℕ → M) (N : ℕ) (h0 : s 0 = z)
    (hs : ∀ k, k < N → s (k + 1) = s k + g k) : ∀ n, n ≤ N → s n = z + ∑ k ∈ Finset.range n, g k
  | 0, _ => by rw [h0, Finset.sum_range_zero, add_zero]
  | n + 1, hn => by
    rw [hs n (Nat.lt_of_succ_le hn), fold_eq_sum z g s N h0 hs n (Nat.le_of_succ_le hn), Finset.sum_range_succ, add_assoc]

/-- The two together: an accumulator started at `z` and advanced, chunk after chunk, by the sum of the chunk's `b`
    entries stands after all `a` chunks at `z` plus the sum over all `a * b` indices. -/
theorem fold_chunks_eq_sum {M : Type*} [AddCommMonoid M] {n : ℕ} (a b : ℕ) (h : a * b = n) (f : Fin n → M) (z : M)
    (s : ℕ → M) (h0 : s 0 = z)
    (hs : ∀ c : Fin a, s (c.val + 1) = s c.val + ∑ j : Fin b, f ⟨j.val + b * c.val, h ▸ chunk_lt c j⟩) :
    s a = z + ∑ k : Fin n, f k := by
  let g : ℕ → M := fun c => if hc : c < a then ∑ j : Fin b, f ⟨j.val + b * c, h ▸ chunk_lt ⟨c, hc⟩ j⟩ else 0
  have hg : ∀ c : Fin a, g c.val = ∑ j : Fin b, f ⟨j.val + b * c.val, h ▸ chunk_lt c j⟩ := fun c => dif_pos c.isLt
  rw [fold_eq_sum z g s a h0 (fun k hk => by rw [hs ⟨k, hk⟩, ← hg ⟨k, hk⟩]) a le_rfl, sum_chunks a b h f,
    Finset.sum_range]
  exact congrArg (z + ·) (Finset.sum_congr rfl fun c _ => hg c)

end Cert.Lib.SumChunks
-- ==== Proof.AlgJoin.lean ====
/-
  Maxima and sums of a row of 8192 entries that is two rows of 4096 laid end to end: the maximum is the larger of the
  halves' maxima and a sum splits into the halves' sums. Both hold of the extended reals with their infinities (a
  lattice fact and a fact of commutative additive monoids).
-/
import proofs.«169810_j2911987827023_2_alg».proof.Proof.Spec
import proofs.«169810_j2911987827023_2_alg».proof.Proof.LibSumChunks

noncomputable section

namespace Cert.Contrast

open Idealize.ShloMosaic

/-- The fold of `max` from −∞ is the supremum of the values. -/
theorem rowmax_eq_sup {n : ℕ} (f : Fin n → EReal) : rowmax f = Finset.univ.sup f := rfl

theorem le_rowmax {n : ℕ} (f : Fin n → EReal) (j : Fin n) : f j ≤ rowmax f := by
  rw [rowmax_eq_sup]; exact Finset.le_sup (Finset.mem_univ j)

theorem rowmax_le {n : ℕ} {f : Fin n → EReal} {c : EReal} (h : ∀ j, f j ≤ c) : rowmax f ≤ c := by
  rw [rowmax_eq_sup]; exact Finset.sup_le fun j _ => h j

/-- Over a non-empty index set the maximum is one of the values. -/
theorem rowmax_mem (f : Fin 4096 → EReal) : ∃ j, rowmax f = f j := by
  rw [rowmax_eq_sup]
  obtain ⟨j, _, hj⟩ := Finset.exists_mem_eq_sup Finset.univ ⟨⟨0, by norm_num⟩, Finset.mem_univ _⟩ f
  exact ⟨j, hj⟩

/-- Two rows of 4096 laid end to end. -/
def join (p q : Fin 4096 → EReal) (J : Fin 8192) : EReal := if J.val < 4096 then p (lo J) else q (lo J)

theorem join_low (p q : Fin 4096 → EReal) (j : Fin 4096) : join p q ⟨j.val, by omega⟩ = p j := by
  unfold join lo
  rw [if_pos (show j.val < 4096 from j.isLt)]
  exact congrArg p (Fin.ext (Nat.mod_eq_of_lt j.isLt))

theorem join_high (p q : Fin 4096 → EReal) (j : Fin 4096) : join p q ⟨j.val + 4096 * 1, by omega⟩ = q j := by
  unfold join lo
  rw [if_neg (show ¬ j.val + 4096 * 1 < 4096 by omega)]
  exact congrArg q (Fin.ext (by show (j.val + 4096 * 1) % 4096 = j.val; omega))

/-- The maximum of the joined row. -/
theorem rowmax_join (p q : Fin 4096 → EReal) : rowmax (join p q) = max (rowmax p) (rowmax q) := by
  apply le_antisymm
  · refine rowmax_le fun J => ?_
    unfold join
    split
    · exact le_trans (le_rowmax p _) (le_max_left _ _)
    · exact le_trans (le_rowmax q _) (le_max_right _ _)
  · refine max_le (rowmax_le fun j => ?_) (rowmax_le fun j => ?_)
    · rw [← join_low p q j]; exact le_rowmax _ _
    · rw [← join_high p q j]; exact le_rowmax _ _

/-- A sum over 8192 indices is the sum over the first 4096 plus the sum over the last 4096. -/
theorem sum_halves (h : Fin 8192 → EReal) :
    ∑ J : Fin 8192, h J = (∑ j : Fin 4096, h ⟨j.val, by omega⟩) + ∑ j : Fin 4096, h ⟨j.val + 4096 * 1, by omega⟩ := by
  rw [Cert.Lib.SumChunks.sum_chunks 2 4096 (by norm_num) h, Fin.sum_univ_two]
  exact congrArg₂ (· + ·)
    (Finset.sum_congr rfl fun j _ => congrArg h (Fin.ext (by simp)))
    (Finset.sum_congr rfl fun j _ => congrArg h (Fin.ext (by simp)))

/-- A sum of a function of the joined row's entries. -/
theorem sum_join (F : EReal → EReal) (p q : Fin 4096 → EReal) :
    ∑ J : Fin 8192, F (join p q J) = (∑ j : Fin 4096, F (p j)) + ∑ j : Fin 4096, F (q j) := by
  rw [sum_halves]
  exact congrArg₂ (· + ·)
    (Finset.sum_congr rfl fun j _ => congrArg F (join_low p q j))
    (Finset.sum_congr rfl fun j _ => congrArg F (join_high p q j))

end Cert.Contrast

end
-- ==== Proof.Consts.lean ====
/-
  The float words the two programs spell, as the extended reals they denote.
-/
import proofs.«169810_j2911987827023_2_alg».proof.Proof.Spec

noncomputable section

namespace Cert.Contrast

open Idealize.ShloMosaic

/-- The word 0x40000000 denotes 2. -/
theorem two_eq : two = ((2 : ℝ) : EReal) := by
  unfold two; simp [Ideal.ofBits, Ideal.ieee, -EReal.coe_mul]; norm_num

/-- The word 0x46000000 denotes 8192. -/
theorem cnt_eq : cnt = ((8192 : ℝ) : EReal) := by
  unfold cnt; simp [Ideal.ofBits, Ideal.ieee, -EReal.coe_mul]; norm_num

/-- The word 0x322BCC77 denotes a positive real. -/
theorem eps_pos : ∃ e : ℝ, 0 < e ∧ eps = (e : EReal) := by
  unfold eps
  refine ⟨_, ?_, by simp [Ideal.ofBits, Ideal.ieee, -EReal.coe_mul]; rfl⟩
  positivity

end Cert.Contrast

end
-- ==== Proof.AlgRow.lean ====
/-
  One row of the loss, two ways. For normalised families whose entries are all real, every similarity is real, every
  row maximum that enters a log-sum-exp is real (a masked row has one entry at −∞, but it is always taken together
  with an unmasked one), and then

      2·d − (m₁ + ℓ₁) − (m₂ + ℓ₂) = ((d − m₁) − ℓ₁) + ((d − m₂) − ℓ₂)

  for real d, m₁, m₂ and ANY extended reals ℓ₁, ℓ₂ (the logarithms are never opened): the tiled row term is the sum of
  the two log-softmax entries of the rows i and 4096 + i of the whole score matrix.
-/
import proofs.«169810_j2911987827023_2_alg».proof.Proof.AlgJoin
import proofs.«169810_j2911987827023_2_alg».proof.Proof.Consts

noncomputable section

namespace Cert.Contrast

open Idealize.ShloMosaic

/-- Every entry is a real number. -/
def IsReal (a : Rows) : Prop := ∀ i k, ∃ r : ℝ, a i k = (r : EReal)

/-- A finite sum of reals, taken in the extended reals, is the real sum. -/
theorem coe_sum {ι : Type*} (s : Finset ι) (f : ι → ℝ) : (∑ k ∈ s, (f k : EReal)) = ((∑ k ∈ s, f k : ℝ) : EReal) := by
  classical
  refine Finset.induction_on s (by simp) fun a s ha ih => ?_
  rw [Finset.sum_insert ha, Finset.sum_insert ha, ih, EReal.coe_add]

theorem sim_real {a b : Rows} (ha : IsReal a) (hb : IsReal b) (i j : Fin 4096) : ∃ r : ℝ, sim a b i j = (r : EReal) := by
  choose A hA using ha
  choose B hB using hb
  refine ⟨(∑ k : Fin 256, A i k * B j k) * 2, ?_⟩
  unfold sim
  rw [two_eq, EReal.coe_mul, ← coe_sum]
  exact congrArg (· * ((2 : ℝ) : EReal)) (Finset.sum_congr rfl fun k _ => by rw [hA, hB, EReal.coe_mul])

/-- The two orders of the factors give one similarity. -/
theorem sim_comm (a b : Rows) (i j : Fin 4096) : sim b a i j = sim a b j i := by
  unfold sim
  exact congrArg (· * two) (Finset.sum_congr rfl fun k _ => mul_comm _ _)

/-- The maximum of a row of reals is real. -/
theorem rowmax_real {f : Fin 4096 → EReal} (hf : ∀ j, ∃ r : ℝ, f j = (r : EReal)) : ∃ r : ℝ, rowmax f = (r : EReal) := by
  obtain ⟨j, hj⟩ := rowmax_mem f
  obtain ⟨r, hr⟩ := hf j
  exact ⟨r, hj.trans hr⟩

/-- The maximum of a row whose entries are real or −∞ is real or −∞. -/
theorem rowmax_real_or_bot {f : Fin 4096 → EReal} (hf : ∀ j, f j = ⊥ ∨ ∃ r : ℝ, f j = (r : EReal)) :
    rowmax f = ⊥ ∨ ∃ r : ℝ, rowmax f = (r : EReal) := by
  obtain ⟨j, hj⟩ := rowmax_mem f
  rcases hf j with h | ⟨r, hr⟩
  · exact Or.inl (hj.trans h)
  · exact Or.inr ⟨r, hj.trans hr⟩

theorem max_real_left {u v : EReal} (hu : ∃ r : ℝ, u = (r : EReal)) (hv : v = ⊥ ∨ ∃ r : ℝ, v = (r : EReal)) :
    ∃ r : ℝ, max u v = (r : EReal) := by
  obtain ⟨r, rfl⟩ := hu
  rcases hv with rfl | ⟨s, rfl⟩
  · exact ⟨r, max_eq_left bot_le⟩
  · exact ⟨max r s, (EReal.coe_strictMono.monotone.map_max).symm⟩

theorem msk_real_or_bot {a : Rows} (ha : IsReal a) (i j : Fin 4096) : msk a i j = ⊥ ∨ ∃ r : ℝ, msk a i j = (r : EReal) := by
  unfold msk
  split
  · exact Or.inl rfl
  · exact Or.inr (sim_real ha ha i j)

/-- The shift of a log-sum-exp over an unmasked and a masked half is real. -/
theorem shift_real {a b c : Rows} (ha : IsReal a) (hb : IsReal b) (hc : IsReal c) (i i' : Fin 4096) :
    ∃ r : ℝ, max (rowmax (sim a b i)) (rowmax (msk c i')) = (r : EReal) :=
  max_real_left (rowmax_real fun j => sim_real ha hb i j) (rowmax_real_or_bot fun j => msk_real_or_bot hc i' j)

/-- The identity between the two arrangements of a row's terms: real target logit and shifts, any logarithms. -/
theorem row_identity (d m₁ m₂ : ℝ) (l₁ l₂ : EReal) :
    two * (d : EReal) - ((m₁ : EReal) + l₁) - ((m₂ : EReal) + l₂)
      = (((d : EReal) - (m₁ : EReal)) - l₁) + (((d : EReal) - (m₂ : EReal)) - l₂) := by
  rw [two_eq, ← EReal.coe_mul, two_mul, EReal.coe_add]
  simp only [sub_eq_add_neg]
  rw [EReal.neg_add (Or.inl (EReal.coe_ne_bot _)) (Or.inl (EReal.coe_ne_top _)),
    EReal.neg_add (Or.inl (EReal.coe_ne_bot _)) (Or.inl (EReal.coe_ne_top _))]
  simp only [sub_eq_add_neg]
  generalize -(m₁ : EReal) = n₁
  generalize -(m₂ : EReal) = n₂
  generalize -l₁ = k₁
  generalize -l₂ = k₂
  ac_rfl

/-- The target logit, picked out of its row by the mask, is the diagonal similarity. -/
theorem diag_eq (a b : Rows) (i : Fin 4096) : diag a b i = sim a b i i := by
  unfold diag
  rw [Finset.sum_ite_eq]
  simp

/-! ## The rows of the score matrix -/

theorem lo_low (i : Fin 4096) : lo ⟨i.val, by omega⟩ = i := Fin.ext (Nat.mod_eq_of_lt i.isLt)
theorem lo_high (i : Fin 4096) : lo ⟨i.val + 4096 * 1, by omega⟩ = i :=
  Fin.ext (by show (i.val + 4096 * 1) % 4096 = i.val; omega)

theorem scores_low (a b : Rows) (i : Fin 4096) : scores a b ⟨i.val, by omega⟩ = join (sim a b i) (msk a i) := by
  funext J
  unfold scores join
  rw [lo_low, if_pos (show (⟨i.val, by omega⟩ : Fin 8192).val < 4096 from i.isLt)]

theorem scores_high (a b : Rows) (i : Fin 4096) :
    scores a b ⟨i.val + 4096 * 1, by omega⟩ = join (msk b i) (sim b a i) := by
  funext J
  unfold scores join
  rw [lo_high, if_neg (show ¬ (⟨i.val + 4096 * 1, by omega⟩ : Fin 8192).val < 4096 by show ¬ i.val + 4096 * 1 < 4096; omega)]
  split
  · rfl
  · exact (sim_comm a b i (lo J)).symm

/-- The log-softmax of a joined row `join p q` at a column where it holds `d`. -/
theorem rowR_join (p q : Fin 4096 → EReal) (d : EReal) :
    (d - max ⊥ (rowmax (join p q)))
        - Ideal.log (0 + ∑ J : Fin 8192, Ideal.exp (join p q J - max ⊥ (rowmax (join p q))))
      = (d - max (rowmax p) (rowmax q))
        - Ideal.log ((∑ j, Ideal.exp (p j - max (rowmax p) (rowmax q))) + ∑ j, Ideal.exp (q j - max (rowmax p) (rowmax q))) := by
  rw [rowmax_join, max_bot_left, zero_add, sum_join (fun v => Ideal.exp (v - max (rowmax p) (rowmax q)))]

theorem rowR_low (a b : Rows) (i : Fin 4096) :
    rowR a b ⟨i.val, by omega⟩
      = (sim a b i i - max (rowmax (sim a b i)) (rowmax (msk a i)))
        - Ideal.log ((∑ j, Ideal.exp (sim a b i j - max (rowmax (sim a b i)) (rowmax (msk a i))))
            + ∑ j, Ideal.exp (msk a i j - max (rowmax (sim a b i)) (rowmax (msk a i)))) := by
  unfold rowR
  rw [scores_low, rowR_join, join_low]

theorem rowR_high (a b : Rows) (i : Fin 4096) :
    rowR a b ⟨i.val + 4096 * 1, by omega⟩
      = (sim a b i i - max (rowmax (msk b i)) (rowmax (sim b a i)))
        - Ideal.log ((∑ j, Ideal.exp (msk b i j - max (rowmax (msk b i)) (rowmax (sim b a i))))
            + ∑ j, Ideal.exp (sim b a i j - max (rowmax (msk b i)) (rowmax (sim b a i)))) := by
  unfold rowR
  rw [scores_high, rowR_join, join_high, sim_comm a b i i]

/-- The tiled row term is the sum of the two log-softmax entries of rows `i` and `4096 + i`. -/
theorem rowK_eq {a b : Rows} (ha : IsReal a) (hb : IsReal b) (i : Fin 4096) :
    rowK a b i = rowR a b ⟨i.val, by omega⟩ + rowR a b ⟨i.val + 4096 * 1, by omega⟩ := by
  rw [rowR_low, rowR_high]
  obtain ⟨d, hd⟩ := sim_real ha hb i i
  obtain ⟨m₁, hm₁⟩ := shift_real ha hb ha i i
  obtain ⟨m₂, hm₂⟩ : ∃ r : ℝ, max (rowmax (msk b i)) (rowmax (sim b a i)) = (r : EReal) := by
    rw [max_comm]; exact shift_real hb ha hb i i
  unfold rowK lse2
  rw [diag_eq, hd, hm₁, hm₂]
  exact row_identity d m₁ m₂ _ _

end Cert.Contrast

end
-- ==== Proof.AlgTotal.lean ====
/-
  The two forms of the loss agree for normalised families with real entries, and row normalisation of a real array
  has real entries (the divisor is at least ε > 0, so the quotient is a real even where the norm is infinite).
-/
import proofs.«169810_j2911987827023_2_alg».proof.Proof.AlgRow

noncomputable section

namespace Cert.Contrast

open Idealize.ShloMosaic Idealize.ShloMosaic.ValueIdx

/-- A real over an extended real that is at least a positive real is a real. -/
theorem div_real_of_pos (r : ℝ) {y : EReal} {e : ℝ} (he : 0 < e) (hy : (e : EReal) ≤ y) :
    ∃ t : ℝ, Ideal.div (r : EReal) y = (t : EReal) := by
  have hy0 : y ≠ 0 := fun h => by
    rw [h] at hy
    exact absurd (EReal.coe_le_coe_iff.mp (by simpa using hy)) (not_le.mpr he)
  unfold Ideal.div
  rw [if_neg hy0]
  induction y using EReal.rec with
  | bot => exact absurd hy (by simp)
  | top => exact ⟨0, by simp⟩
  | coe s => exact ⟨r * s⁻¹, by rw [EReal.coe_mul, EReal.coe_inv]⟩

/-- Row normalisation of an array of reals has real entries. -/
theorem unit_real (x : (⟨2, ![4096, 256]⟩ : Shape).Idx → EReal) (hx : ∀ i, ∃ r : ℝ, x i = (r : EReal)) :
    IsReal (unit x) := by
  intro i k
  obtain ⟨e, he, hε⟩ := eps_pos
  obtain ⟨r, hr⟩ := hx (ix2 i k)
  unfold unit
  rw [hr]
  exact div_real_of_pos r he (hε ▸ le_max_right _ _)

/-- A tile's sum, with its rows named by position in the tile. -/
theorem partK_eq (a b : Rows) (t : ℕ) (ht : t < 32) :
    partK a b t = ∑ j : Fin 128, rowK a b ⟨j.val + 128 * t, by have := j.isLt; omega⟩ :=
  Finset.sum_congr rfl fun j _ => congrArg (rowK a b) (Fin.ext (by
    show (128 * t + j.val) % 4096 = j.val + 128 * t
    have := j.isLt; omega))

/-- The running total after the last tile is the sum over all 4096 rows. -/
theorem accK_eq (a b : Rows) : accK a b 31 = 0 + ∑ i : Fin 4096, rowK a b i := by
  refine Cert.Lib.SumChunks.fold_chunks_eq_sum 32 128 (by norm_num : 32 * 128 = 4096) (rowK a b) 0
    (fun n => match n with | 0 => 0 | n + 1 => accK a b n) rfl fun c => ?_
  obtain ⟨n, hn⟩ := c
  cases n with
  | zero =>
    show accK a b 0 = 0 + _
    unfold accK
    exact congrArg (0 + ·) (partK_eq a b 0 (by norm_num))
  | succ n =>
    show accK a b (n + 1) = accK a b n + _
    rw [accK]
    exact congrArg (accK a b n + ·) (partK_eq a b (n + 1) hn)

/-- The loss accumulated tile by tile is the loss computed from the whole score matrix. -/
theorem loss_eq {a b : Rows} (ha : IsReal a) (hb : IsReal b) : lossK a b = lossR a b := by
  unfold lossK lossR
  rw [accK_eq, sum_halves (rowR a b), ← Finset.sum_add_distrib,
    show (∑ i : Fin 4096, rowK a b i)
        = ∑ i : Fin 4096, (rowR a b ⟨i.val, by omega⟩ + rowR a b ⟨i.val + 4096 * 1, by omega⟩)
      from Finset.sum_congr rfl fun i _ => rowK_eq ha hb i,
    cnt_eq, Ideal.div_coe (by norm_num), Ideal.div_coe (by norm_num), neg_mul]

end Cert.Contrast

end
-- ==== Proof.lean ====
/-
  The certificate of a contrastive (InfoNCE) loss of x, y : f32[4096, 256] computed two ways.

  The kernel normalises the rows of x and y (each entry over max(‖row‖, ε)) in a first pass and, in a second pass over 32
  tiles of 128 rows, forms for each row i the four similarity rows 2·⟨x̂ᵢ, ŷⱼ⟩, 2·⟨x̂ᵢ, x̂ⱼ⟩ (j ≠ i), 2·⟨ŷᵢ, ŷⱼ⟩ (j ≠ i),
  2·⟨ŷᵢ, x̂ⱼ⟩, takes the log-sum-exp of the first pair and of the second pair (each shifted by the pair's maximum), adds
  2·(target logit) − lse₁ − lse₂ over the rows of the tile into a running scalar, and finally returns −total / 8192. The
  masked diagonal is a large negative float in the kernel; the certificate names it −∞ (`preserves` states that naming).

  The reference builds the 8192 × 8192 score matrix [[S_xy, S_xx°], [S_yy°, S_xyᵀ]] with the diagonals of S_xx and S_yy
  set to −∞, takes the log-softmax of every row, reads it at the target column, and returns minus the mean.

  At the ideal values both are functions on the extended reals (Spec.lean). The kernel's value is read off its frame
  run: the first pass's arrays (Normalize.lean), the second pass's accumulator after the last tile (Tiles.lean) and the
  host tail (KernelTail.lean). The reference's value is read off its run one operation at a time (RefMask.lean,
  RefLoss.lean). The two agree for inputs whose entries are all real (AlgTotal.lean): similarities and the shifts of
  the log-sum-exps are then real, and with real shifts the row identity
      2d − (m₁ + ℓ₁) − (m₂ + ℓ₂) = ((d − m₁) − ℓ₁) + ((d − m₂) − ℓ₂)
  holds for any extended reals ℓ₁, ℓ₂, so no logarithm is opened; maxima and sums over a row of 8192 split into the two
  halves, and sums over 4096 rows regroup into the 32 tiles. The precondition (every input finite) gives the real
  entries (Finite.lean).
-/
import proofs.«169810_j2911987827023_2_alg».proof.Defs
import proofs.«169810_j2911987827023_2_alg».proof.Proof.Gen.Kernel
import proofs.«169810_j2911987827023_2_alg».proof.Proof.Gen.Kernel.Frame
import proofs.«169810_j2911987827023_2_alg».proof.Proof.Gen.KernelIdeal
import proofs.«169810_j2911987827023_2_alg».proof.Proof.Gen.KernelIdeal.Frame
import proofs.«169810_j2911987827023_2_alg».proof.Proof.Gen.ReferenceIdeal
import proofs.«169810_j2911987827023_2_alg».proof.Proof.Gen.Pre_finite_inputs
import proofs.«169810_j2911987827023_2_alg».proof.Proof.KernelRun
import proofs.«169810_j2911987827023_2_alg».proof.Proof.KernelTail
import proofs.«169810_j2911987827023_2_alg».proof.Proof.Normalize
import proofs.«169810_j2911987827023_2_alg».proof.Proof.Tiles
import proofs.«169810_j2911987827023_2_alg».proof.Proof.RefRun
import proofs.«169810_j2911987827023_2_alg».proof.Proof.RefMask
import proofs.«169810_j2911987827023_2_alg».proof.Proof.RefLoss
import proofs.«169810_j2911987827023_2_alg».proof.Proof.Finite
import proofs.«169810_j2911987827023_2_alg».proof.Proof.AlgTotal
import Idealize.ShloMosaic.Adequacy
import Idealize.ShloMosaic.Init

noncomputable section

namespace Cert.Proof

open Idealize.ShloMosaic Idealize.ShloMosaic.TcCoe Idealize.SL.Sem Idealize.ShloMosaic.ValueIdx

/-- The idealized kernel's result buffer after its last host operation: the tiled form of the loss of the two
    normalised inputs — the accumulator after the last tile (over the first pass's arrays), negated and divided by 8192. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Gen.W3 (F := Ideal) m ρ c (Proc.devRef .tc Cert.KernelIdeal.main_v4) : Cert.KernelIdeal.S_.Idx → EReal)
      = fun _ => Cert.Contrast.lossK
          (Cert.Contrast.unit (m ((c.tc : Thread Cert.KernelIdeal.nD Cert.KernelIdeal.τ).loc Cert.KernelIdeal.main_arg0)))
          (Cert.Contrast.unit (m ((c.tc : Thread Cert.KernelIdeal.nD Cert.KernelIdeal.τ).loc Cert.KernelIdeal.main_arg1))) :=
  Cert.KernelIdeal.ValueRun.tail_value_of m ρ c _
    (congrFun (Cert.Contrast.Tiles.region1_total (Cert.KernelIdeal.Gen.V1 m ρ) c _ _
      (Cert.Contrast.Normalize.xn_apply m ρ c) (Cert.Contrast.Normalize.yn_apply m ρ c)) (ix2 0 0))

/-- The idealized reference's result, as a function of its two arguments: the whole-matrix form of the loss of the two
    normalised inputs. -/
theorem reference_value (x y : (⟨Cert.ReferenceIdeal.S4096x256, .f32⟩ : BufTy).Contents (Elt Ideal)) :
    Cert.ReferenceIdeal.ReadP.val_main_v76 (F := Ideal) x y
      = fun _ => Cert.Contrast.lossR (Cert.Contrast.unit x) (Cert.Contrast.unit y) :=
  Cert.ReferenceIdeal.RefLoss.loss_value x y _ _ (Cert.ReferenceIdeal.RefB.v21_apply x y)
    (Cert.ReferenceIdeal.RefB.v37_apply x) (Cert.ReferenceIdeal.RefB.v52_apply y)

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, ?_, ?_⟩
  · -- the reference's frame is its run with the result dropped
    exact fun m ρ _ => (θ_run Cert.ReferenceIdeal.defs _ _).mono (fun _ h c => (h c).2)
      (Cert.ReferenceIdeal.ValueP.run (F := Ideal) m ρ)
  · -- the two masked-diagonal constants are named −∞
    exact ⟨IdealRules.named_const.statement Cert.KernelIdeal.κ "neg_big" .f32 0xFF333332#32 ⊥ rfl,
      IdealRules.named_const.statement Cert.KernelIdeal.κ "neg_big" .f32 0xFF333332#32 ⊥ rfl⟩
  · -- both programs end at the loss of the normalised inputs; the two forms agree on real entries
    intro m ρ m' ρ' hpre hagree
    refine ⟨fun c => fun _ => Cert.Contrast.lossK
        (Cert.Contrast.unit (m ((c.tc : Thread Cert.KernelIdeal.nD Cert.KernelIdeal.τ).loc Cert.KernelIdeal.main_arg0)))
        (Cert.Contrast.unit (m ((c.tc : Thread Cert.KernelIdeal.nD Cert.KernelIdeal.τ).loc Cert.KernelIdeal.main_arg1))), ?_, ?_⟩
    · exact (θ_run Cert.KernelIdeal.defs _ _).mono
        (fun _ h c => ⟨(h c).1.trans (kernel_value m ρ c), (h c).2⟩)
        (Cert.KernelIdeal.ValueRun.value_run (F := Ideal) m ρ)
    · refine (θ_run Cert.ReferenceIdeal.defs _ _).mono (fun _ h c => ⟨(h c).1.trans ?_, (h c).2⟩)
        (Cert.ReferenceIdeal.ValueP.run (F := Ideal) m' ρ')
      obtain ⟨hx, hy⟩ := Cert.Contrast.Finite.finite_of_pre _ _ (hpre c)
      unfold Cert.ReferenceIdeal.ValueP.res_main_v76
      rw [(hagree c).1, (hagree c).2, reference_value]
      exact funext fun _ => (Cert.Contrast.loss_eq (Cert.Contrast.unit_real _ hx) (Cert.Contrast.unit_real _ hy)).symm⟩

end Cert.Proof

end
